-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x64 : Shape := ⟨2, ![30000, 64]⟩
abbrev S70000x64 : Shape := ⟨2, ![70000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S30000x64 : S_.BroadcastsInDim S30000x64 (![] : Fin 0 → Fin S30000x64.rank)
  reducesTo_S30000x64_S_d0_1 : S30000x64.ReducesTo [0, 1] S_
  h_S_ : 0 < S_.numel
  bcast_S_S70000x64 : S_.BroadcastsInDim S70000x64 (![] : Fin 0 → Fin S70000x64.rank)
  reducesTo_S70000x64_S_d0_1 : S70000x64.ReducesTo [0, 1] S_
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg7 : FVec F S64x32 .f32) (main_arg8 : FVec F S32 .f32) (main_arg9 : FVec F S64x32 .f32) (main_arg10 : FVec F S32 .f32) (main_v33 : IVec S_ 1) : IVec S_ 1 :=
  let main_v34 : FVec F S64x32 .f32 := Host.absf main_arg7
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg4 : FVec F S64 .f32) (main_arg5 : FVec F S64x64 .f32) (main_arg6 : FVec F S64 .f32) (main_arg7 : FVec F S64x32 .f32) (main_arg8 : FVec F S32 .f32) (main_arg9 : FVec F S64x32 .f32) (main_arg10 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S30000x64 .f32) (main_arg1 : FVec F S70000x64 .f32) (main_arg2 : FVec F S1600000 .f32) (main_arg3 : FVec F S64x64 .f32) (main_arg4 : FVec F S64 .f32) (main_arg5 : FVec F S64x64 .f32) (main_arg6 : FVec F S64 .f32) (main_arg7 : FVec F S64x32 .f32) (main_arg8 : FVec F S32 .f32) (main_arg9 : FVec F S64x32 .f32) (main_arg10 : FVec F S32 .f32) (main_arg11 : IVec S1600000 32) (main_arg12 : IVec S1600000 32) : IVec S_ 1 :=
  let main_v0 : FVec F S30000x64 .f32 := Host.absf main_arg0
  let main_cst : FVec F S_ .f32 := constant S_ .f32 0x7F800000#32
  let main_v1 : FVec F S30000x64 .f32 := broadcastInDim S30000x64 ![] bcast_S_S30000x64 main_cst
  let main_v2 : IVec S30000x64 1 := cmpf .olt main_v0 main_v1
  let main_c : IVec S_ 1 := constantI S_ 1 1#1
  let main_v3 : IVec S_ 1 := (fun x v => Host.reduce IntOp.andi x v reducesTo_S30000x64_S_d0_1 h_S_) main_v2 main_c
  let main_v4 : FVec F S70000x64 .f32 := Host.absf main_arg1
  let main_cst_0 : FVec F S_ .f32 := constant S_ .f32 0x7F800000#32
  let main_v5 : FVec F S70000x64 .f32 := broadcastInDim S70000x64 ![] bcast_S_S70000x64 main_cst_0
  let main_v6 : IVec S70000x64 1 := cmpf .olt main_v4 main_v5
  let main_c_1 : IVec S_ 1 := constantI S_ 1 1#1
  let main_v7 : IVec S_ 1 := (fun x v => Host.reduce IntOp.andi x v reducesTo_S70000x64_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S30000x64 : Shape := ⟨2, ![30000, 64]⟩
abbrev S70000x64 : Shape := ⟨2, ![70000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩
abbrev S1x32 : Shape := ⟨2, ![1, 32]⟩
abbrev S100000x32 : Shape := ⟨2, ![100000, 32]⟩
abbrev S5000x32 : Shape := ⟨2, ![5000, 32]⟩
abbrev S100000x160 : Shape := ⟨2, ![100000, 160]⟩

abbrev nBuf : Space → Nat
  | .hbm => 57
  | .vmem => 20
  | .smem => 0
  | _ => 0

abbrev bufTy : (tb : Table) → Fin (tcTables nBuf tb) → BufTy
  | .hbm, ⟨0, _⟩ => ⟨S30000x64, .f32⟩
  | .hbm, ⟨1, _⟩ => ⟨S70000x64, .f32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S64x32, .f32⟩
  | .hbm, ⟨10, _⟩ => ⟨S32, .f32⟩
  | .hbm, ⟨11, _⟩ => ⟨S1600000, .i32⟩
  | .hbm, ⟨12, _⟩ => ⟨S1600000, .i32⟩
  | .hbm, ⟨13, _⟩ => ⟨S100000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x1, .f32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S64x64, .bf16⟩
  | .hbm, ⟨31, _⟩ => ⟨S64x64, .bf16⟩
  | .hbm, ⟨32, _⟩ => ⟨S1x64, .f32⟩
  | .hbm, ⟨33, _⟩ => ⟨S1x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S1600000x1, .f32⟩
  | .hbm, ⟨45, _⟩ => ⟨S1600000x64, .f32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S64x32, .bf16⟩
  | .hbm, ⟨52, _⟩ => ⟨S64x32, .bf16⟩
  | .hbm, ⟨53, _⟩ => ⟨S1x32, .f32⟩
  | .hbm, ⟨54, _⟩ => ⟨S1x32, .f32⟩
  | .hbm, ⟨55, _⟩ => ⟨S100000x32, .f32⟩
  | .hbm, ⟨56, _⟩ => ⟨S100000x160, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .bf16⟩
  | .local _ .vmem, ⟨5, _⟩ => ⟨S1x64, .f32⟩
  | .local _ .vmem, ⟨6, _⟩ => ⟨S64x64, .bf16⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x32, .bf16⟩
  | .local _ .vmem, ⟨15, _⟩ => ⟨S1x32, .f32⟩
  | .local _ .vmem, ⟨16, _⟩ => ⟨S64x32, .bf16⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | _, _ => ⟨S30000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  concatenates_S30000x64_S70000x64_S100000x64_d0 : Shape.Concatenates [S30000x64, S70000x64] S100000x64 0
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bitsLt_bf16_f32 : FTy.bits .bf16 < FTy.bits .f32
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  concatenates_S100000x64_S100000x64_S100000x32_S100000x160_d1 : Shape.Concatenates [S100000x64, S100000x64, S100000x32] S100000x160 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .bf16 = 32 ∨ (Rect.block (s := S64x32) S64x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .bf16 = 32 ∨ (Rect.block (s := S64x32) S64x32.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S30000x64 : Shape := ⟨2, ![30000, 64]⟩
abbrev S70000x64 : Shape := ⟨2, ![70000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S100000x160 : Shape := ⟨2, ![100000, 160]⟩

abbrev nBuf : Space → Nat
  | .hbm => 117
  | .vmem => 0
  | .smem => 0
  | _ => 0

abbrev bufTy : (tb : Table) → Fin (tcTables nBuf tb) → BufTy
  | .hbm, ⟨0, _⟩ => ⟨S30000x64, .f32⟩
  | .hbm, ⟨1, _⟩ => ⟨S70000x64, .f32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S64x32, .f32⟩
  | .hbm, ⟨10, _⟩ => ⟨S32, .f32⟩
  | .hbm, ⟨11, _⟩ => ⟨S1600000, .i32⟩
  | .hbm, ⟨12, _⟩ => ⟨S1600000, .i32⟩
  | .hbm, ⟨13, _⟩ => ⟨S100000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x1, .f32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .i1⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .i1⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000, .f32⟩
  | .hbm, ⟨58, _⟩ => ⟨S100000x1, .f32⟩
  | .hbm, ⟨59, _⟩ => ⟨S100000x1, .f32⟩
  | .hbm, ⟨60, _⟩ => ⟨S_, .f32⟩
  | .hbm, ⟨61, _⟩ => ⟨S100000x1, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S1600000x1, .f32⟩
  | .hbm, ⟨75, _⟩ => ⟨S1600000x64, .f32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S100000x64, .f32⟩
  | .hbm, ⟨82, _⟩ => ⟨S100000x32, .f32⟩
  | .hbm, ⟨83, _⟩ => ⟨S1x32, .f32⟩
  | .hbm, ⟨84, _⟩ => ⟨S100000x32, .f32⟩
  | .hbm, ⟨85, _⟩ => ⟨S100000x32, .f32⟩
  | .hbm, ⟨86, _⟩ => ⟨S_, .f32⟩
  | .hbm, ⟨87, _⟩ => ⟨S100000x32, .f32⟩
  | .hbm, ⟨88, _⟩ => ⟨S100000x32, .i1⟩
  | .hbm, ⟨89, _⟩ => ⟨S_, .f32⟩
  | .hbm, ⟨90, _⟩ => ⟨S100000x32, .f32⟩
  | .hbm, ⟨91, _⟩ => ⟨S100000x32, .f32⟩
  | .hbm, ⟨92, _⟩ => ⟨S100000x32, .f32⟩
  | .hbm, ⟨93, _⟩ => ⟨S100000x64, .f32⟩
  | .hbm, ⟨94, _⟩ => ⟨S100000x32, .f32⟩
  | .hbm, ⟨95, _⟩ => ⟨S1x32, .f32⟩
  | .hbm, ⟨96, _⟩ => ⟨S100000x32, .f32⟩
  | .hbm, ⟨97, _⟩ => ⟨S100000x32, .f32⟩
  | .hbm, ⟨98, _⟩ => ⟨S_, .f32⟩
  | .hbm, ⟨99, _⟩ => ⟨S100000x32, .f32⟩
  | .hbm, ⟨100, _⟩ => ⟨S100000x32, .i1⟩
  | .hbm, ⟨101, _⟩ => ⟨S_, .f32⟩
  | .hbm, ⟨102, _⟩ => ⟨S100000x32, .f32⟩
  | .hbm, ⟨103, _⟩ => ⟨S100000x32, .f32⟩
  | .hbm, ⟨104, _⟩ => ⟨S100000x32, .f32⟩
  | .hbm, ⟨105, _⟩ => ⟨S100000x32, .f32⟩
  | .hbm, ⟨106, _⟩ => ⟨S100000x32, .f32⟩
  | .hbm, ⟨107, _⟩ => ⟨S_, .f32⟩
  | .hbm, ⟨108, _⟩ => ⟨S100000, .f32⟩
  | .hbm, ⟨109, _⟩ => ⟨S100000x1, .f32⟩
  | .hbm, ⟨110, _⟩ => ⟨S100000x1, .f32⟩
  | .hbm, ⟨111, _⟩ => ⟨S_, .f32⟩
  | .hbm, ⟨112, _⟩ => ⟨S100000x1, .f32⟩
  | .hbm, ⟨113, _⟩ => ⟨S100000x1, .f32⟩
  | .hbm, ⟨114, _⟩ => ⟨S100000x32, .f32⟩
  | .hbm, ⟨115, _⟩ => ⟨S100000x32, .f32⟩
  | .hbm, ⟨116, _⟩ => ⟨S100000x160, .f32⟩
  | _, _ => ⟨S30000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_call1_v3 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_1 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_2 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_3 : Ref sig .tc := ⟨.hbm, 65, rfl⟩
abbrev main_v35 : Ref sig .tc := ⟨.hbm, 66, rfl⟩
abbrev main_v36 : Ref sig .tc := ⟨.hbm, 67, rfl⟩
abbrev main_c_4 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_5 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_call3_cst : Ref sig .tc := ⟨.hbm, 98, rfl⟩
abbrev main_call3_v0 : Ref sig .tc := ⟨.hbm, 99, rfl⟩
abbrev main_call3_v1 : Ref sig .tc := ⟨.hbm, 100, rfl⟩
abbrev main_call3_cst_0 : Ref sig .tc := ⟨.hbm, 101, rfl⟩
abbrev main_call3_v2 : Ref sig .tc := ⟨.hbm, 102, rfl⟩
abbrev main_call3_v3 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_6 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_7 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩

abbrev nD : Nat := 1
abbrev τ : Topo := Topo.v7x

variable {F : FTy → Type} [FloatOps F]

class Facts₀ : Prop where
  concatenates_S30000x64_S70000x64_S100000x64_d0 : Shape.Concatenates [S30000x64, S70000x64] S100000x64 0
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S100000_d1 : S100000x32.ReducesTo [1] S100000
  bcast_S100000x1_S100000x32_0_1 : S100000x1.BroadcastsInDim S100000x32 (![0, 1] : Fin 2 → Fin S100000x32.rank)
  concatenates_S100000x64_S100000x64_S100000x32_S100000x160_d1 : Shape.Concatenates [S100000x64, S100000x64, S100000x32] S100000x160 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KReg0.lean ====
/-
  The first bi-interaction layer's pallas_call as one step of the program's run: for any contents `V` of the
  core's buffers at its entry, what each window's staging buffer holds at each grid point, the body's effect on
  them (six blocks read whole, one 5000×64 value stored over the whole output block), and the obligation the
  pipeline's launch asks of the body at every point. Stated for every float instance.
-/
import proofs.«119050_j61040075210791_1_alg».proof.Proof.Gen.KernelIdeal.Launch
import proofs.«119050_j61040075210791_1_alg».proof.Proof.Gen.KernelIdeal.Skeleton
import proofs.«119050_j61040075210791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first bi-interaction layer's pallas_call, at the buffer contents `V` it is entered from

Twenty grid points; point `t` stages rows 5000·t … 5000·t+4999 of the two 100000×64 operands, the two whole
weight matrices and the two whole bias rows, and writes back 5000 rows of the result. The body reads its six
input blocks whole, computes one 5000×64 value and stores it over the whole output block. -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or not
    (an unfetched window's block index has not moved); one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0
abbrev rO0 : Rect S5000x64 := Rect.unit (s := S5000x64) ![0, 0] S5000x64.size inb_S5000x64_S5000x64_0_0

/-- The value the body stores, from the six input blocks: the normalised sum of the two branches. -/
def val0 (x0 x1 : Vec F S5000x64 .f32) (x2 : Vec F S64x64 .bf16) (x3 : Vec F S1x64 .f32) (x4 : Vec F S64x64 .bf16) (x5 : Vec F S1x64 .f32) :
    FVec F S5000x64 .f32 :=
  k0_pay1 (k0_pay2 (View.ld x0 rA0) (View.ld x1 rA0) (View.ld x2 rW0) (View.ld x3 rB0) (View.ld x4 rW0) (View.ld x5 rB0))
    (k0_pay3 (View.ld x0 rA0) (View.ld x1 rA0) (View.ld x2 rW0) (View.ld x3 rB0) (View.ld x4 rW0) (View.ld x5 rB0))

/-- The output window's staging buffer after the body: its one store, over the whole buffer. -/
def out0_6 (x0 x1 : Vec F S5000x64 .f32) (x2 : Vec F S64x64 .bf16) (x3 : Vec F S1x64 .f32) (x4 : Vec F S64x64 .bf16) (x5 : Vec F S1x64 .f32) :
    Vec F S5000x64 .f32 :=
  View.canon [⟨rO0, val0 x0 x1 x2 x3 x4 x5⟩]

/-- The one store covers the buffer. -/
theorem cover0_6 (p0 : Vec F S5000x64 .f32) (y : S5000x64.Idx) :
    ∃ pc ∈ ([⟨rO0, p0⟩] : List (View.Piece (Elt F) S5000x64 .f32)), y ∈ pc.1.set :=
  View.cover_of_tiled [⟨rO0, p0⟩] S5000x64.size (by rfl) y

/-! ## The body's triple -/

set_option maxHeartbeats 4000000 in
/-- The body on whole staging memrefs — the inputs' at contents `x0 … x5`, the output's at anything — runs to the
    continuation with the inputs' as they were and the output's at `out0_6` of the inputs. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x64 .bf16) (harg3 : arg3.IsWhole) (arg4 : Memref sig .tc .vmem S1x64 .f32) (harg4 : arg4.IsWhole)
    (arg5 : Memref sig .tc .vmem S64x64 .bf16) (harg5 : arg5.IsWhole) (arg6 : Memref sig .tc .vmem S1x64 .f32) (harg6 : arg6.IsWhole)
    (arg7 : Memref sig .tc .vmem S5000x64 .f32) (harg7 : arg7.IsWhole)
    (x0 x1 : Vec F S5000x64 .f32) (x2 : Vec F S64x64 .bf16) (x3 : Vec F S1x64 .f32) (x4 : Vec F S64x64 .bf16) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__bi_layer_kernel i arg1 harg1 arg2 harg2 arg3 harg3 arg4 harg4 arg5 harg5 arg6 harg6 arg7 harg7) K := by
  simp only [cc0__bi_layer_kernel_eq_skeleton]; unfold cc0__bi_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data -/

/-- The pipeline's proof data on core `c`: the arrays as the region finds them; after the body at point `t` each
    input's buffer still at its block and the output's at `out0_6` of the six input blocks; the invariant is the rest
    of the core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.KF

end
-- ==== Proof.KReg1.lean ====
/-
  The second bi-interaction layer's pallas_call as one step of the program's run: for any contents `V` of the
  core's buffers at its entry, what each window's staging buffer holds at each grid point, the body's effect on
  them (six blocks read whole, one 5000×32 value stored over the whole output block), and the obligation the
  pipeline's launch asks of the body at every point. Stated for every float instance.
-/
import proofs.«119050_j61040075210791_1_alg».proof.Proof.Gen.KernelIdeal.Launch
import proofs.«119050_j61040075210791_1_alg».proof.Proof.Gen.KernelIdeal.Skeleton
import proofs.«119050_j61040075210791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second bi-interaction layer's pallas_call, at the buffer contents `V` it is entered from

Twenty grid points; point `t` stages rows 5000·t … 5000·t+4999 of the two 100000×64 operands, the two whole
64×32 weight matrices and the two whole bias rows, and writes back 5000 rows of the result. The body reads its six
input blocks whole, computes one 5000×32 value and stores it over the whole output block. -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or not
    (an unfetched window's block index has not moved); one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rA1 : Rect S5000x64 := Rect.unit (s := S5000x64) ![0, 0] S5000x64.size inb_S5000x64_S5000x64_0_0
abbrev rW1 : Rect S64x32 := Rect.unit (s := S64x32) ![0, 0] S64x32.size inb_S64x32_S64x32_0_0
abbrev rB1 : Rect S1x32 := Rect.unit (s := S1x32) ![0, 0] S1x32.size inb_S1x32_S1x32_0_0
abbrev rO1 : Rect S5000x32 := Rect.unit (s := S5000x32) ![0, 0] S5000x32.size inb_S5000x32_S5000x32_0_0

/-- The value the body stores, from the six input blocks: the normalised sum of the two branches. -/
def val1 (x0 x1 : Vec F S5000x64 .f32) (x2 : Vec F S64x32 .bf16) (x3 : Vec F S1x32 .f32) (x4 : Vec F S64x32 .bf16) (x5 : Vec F S1x32 .f32) :
    FVec F S5000x32 .f32 :=
  k1_pay1 (k1_pay2 (View.ld x0 rA1) (View.ld x1 rA1) (View.ld x2 rW1) (View.ld x3 rB1) (View.ld x4 rW1) (View.ld x5 rB1))
    (k1_pay3 (View.ld x0 rA1) (View.ld x1 rA1) (View.ld x2 rW1) (View.ld x3 rB1) (View.ld x4 rW1) (View.ld x5 rB1))

/-- The output window's staging buffer after the body: its one store, over the whole buffer. -/
def out1_6 (x0 x1 : Vec F S5000x64 .f32) (x2 : Vec F S64x32 .bf16) (x3 : Vec F S1x32 .f32) (x4 : Vec F S64x32 .bf16) (x5 : Vec F S1x32 .f32) :
    Vec F S5000x32 .f32 :=
  View.canon [⟨rO1, val1 x0 x1 x2 x3 x4 x5⟩]

/-- The one store covers the buffer. -/
theorem cover1_6 (p0 : Vec F S5000x32 .f32) (y : S5000x32.Idx) :
    ∃ pc ∈ ([⟨rO1, p0⟩] : List (View.Piece (Elt F) S5000x32 .f32)), y ∈ pc.1.set :=
  View.cover_of_tiled [⟨rO1, p0⟩] S5000x32.size (by rfl) y

/-! ## The body's triple -/

set_option maxHeartbeats 4000000 in
/-- The body on whole staging memrefs — the inputs' at contents `x0 … x5`, the output's at anything — runs to the
    continuation with the inputs' as they were and the output's at `out1_6` of the inputs. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x32 .bf16) (harg3 : arg3.IsWhole) (arg4 : Memref sig .tc .vmem S1x32 .f32) (harg4 : arg4.IsWhole)
    (arg5 : Memref sig .tc .vmem S64x32 .bf16) (harg5 : arg5.IsWhole) (arg6 : Memref sig .tc .vmem S1x32 .f32) (harg6 : arg6.IsWhole)
    (arg7 : Memref sig .tc .vmem S5000x32 .f32) (harg7 : arg7.IsWhole)
    (x0 x1 : Vec F S5000x64 .f32) (x2 : Vec F S64x32 .bf16) (x3 : Vec F S1x32 .f32) (x4 : Vec F S64x32 .bf16) (x5 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__bi_layer_kernel i arg1 harg1 arg2 harg2 arg3 harg3 arg4 harg4 arg5 harg5 arg6 harg6 arg7 harg7) K := by
  simp only [cc1__bi_layer_kernel_eq_skeleton]; unfold cc1__bi_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The proof data -/

/-- The pipeline's proof data on core `c`: the arrays as the region finds them; after the body at point `t` each
    input's buffer still at its block and the output's at `out1_6` of the six input blocks; the invariant is the rest
    of the core's scoped memory and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.KF

end
-- ==== Proof.KRun.lean ====
/-
  The whole run of the kernel program: host operations, the first layer's pallas_call, host operations, the second
  layer's pallas_call, and the final concatenation. The contents of the core's unscoped buffers are followed from one
  boundary to the next — a host stretch applies its operations in order; a pallas_call leaves each of its seven arrays
  at what its pipeline's write-backs make of it (the six inputs unchanged) and every other buffer as found — and the
  run is stated with every unscoped buffer's final contents in its post. The frame claim (every argument array ends
  as launched) is read off it: no host operation and no pallas_call writes an argument. Stated for every float instance.
-/
import proofs.«119050_j61040075210791_1_alg».proof.Proof.KReg0
import proofs.«119050_j61040075210791_1_alg».proof.Proof.KReg1
import proofs.«119050_j61040075210791_1_alg».proof.Proof.Gen.KernelIdeal.Regions

set_option maxRecDepth 16384

noncomputable section

namespace Cert.KernelIdeal.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the first stretch of host operations: the first pallas_call's entry. -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At the first pallas_call's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second stretch of host operations: the second pallas_call's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the second pallas_call's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the last host operation (the concatenation): the contents the program ends with. -/
abbrev B5 : Dev nD → Valuation τ sig (Elt F) := fun c => StableHlo.after hostOps2 (B4 m ρ c)

/-- A buffer that no host operation writes and that is no array of either pallas_call ends as launched. -/
theorem B5_of_untouched (c : Dev nD) (r : Ref sig .tc) (h0 : r ∉ hostOps0_W) (h1 : r ∉ hostOps1_W) (h2 : r ∉ hostOps2_W)
    (hr0 : ∀ w, Pipeline.arrRef spec0 w ≠ r) (hr1 : ∀ w, Pipeline.arrRef spec1 w ≠ r) :
    B5 m ρ c (Proc.devRef .tc r) = m ((c : Thread nD τ).loc r) :=
  calc B5 m ρ c (Proc.devRef .tc r)
    _ = B4 m ρ c (Proc.devRef .tc r) := StableHlo.after_of_writes_sub hostOps2 _ hostOps2_writes h2
    _ = B3 m ρ c (Proc.devRef .tc r) := B4_of_ne m ρ c r hr1
    _ = B2 m ρ c (Proc.devRef .tc r) := StableHlo.after_of_writes_sub hostOps1 _ hostOps1_writes h1
    _ = B1 m ρ c (Proc.devRef .tc r) := B2_of_ne m ρ c r hr0
    _ = B0 m ρ c (Proc.devRef .tc r) := StableHlo.after_of_writes_sub hostOps0 _ hostOps0_writes h0
    _ = m ((c : Thread nD τ).loc r) := rfl

/-! ## The proof data family and the thread state -/

/-- Each pipeline's proof data at its pallas_call's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at some state. -/
abbrev Tₙ (c : Dev nD) : sProp 𝕄 := iprop(StableHlo.held (c : Thread nD τ) (Pipeline.ucRefs τ sig) (B5 m ρ c) ∗ ∃ r, prngReg c r)

/-! ## The pallas_calls as segments -/

set_option backward.isDefEq.respectTransparency.types false in
/-- The first pallas_call as a segment of the run: entered with every unscoped buffer at `B1`, left with them at
    `B2`. Its seven arrays are split out of the unscoped buffers at entry and put back, at what the pipeline leaves in
    them, at exit; the generator register passes into the pipeline's invariant and out; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call as a segment of the run: entered with every unscoped buffer at `B3`, left with them at
    `B4`. Its seven arrays are split out of the unscoped buffers at entry and put back, at what the pipeline leaves in
    them, at exit; the generator register passes into the pipeline's invariant and out; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's five segments in order. -/
abbrev ksegs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]
/-- The program is the run of its segments. -/
theorem main_run (c : Dev nD) : main (F := F) c = Pipeline.Seg.run (ksegs m ρ) := (main_chain c).trans (by chain_rfl)

set_option backward.isDefEq.respectTransparency.types false in
/-- From any memory with zero counters, every weakly fair execution of the program on the TensorCores terminates,
    nothing faulting, and in every final state every unscoped buffer of core `c` holds `B5 m ρ c` of it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (ksegs m ρ)
    (fun c Q => by rw [main_run m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c =>
      (show (iprop(StableHlo.held (c : Thread nD τ) (Pipeline.ucRefs τ sig) (B5 m ρ c) ∗ R c) : sProp 𝕄)
          ⊢ iprop(Tₙ m ρ c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (B5_of_untouched m ρ c main_arg0 (by decide) (by decide) (by decide) (by decide) (by decide)),
    (h c _ (mem_uc main_arg1 (by decide))).trans (B5_of_untouched m ρ c main_arg1 (by decide) (by decide) (by decide) (by decide) (by decide)),
    (h c _ (mem_uc main_arg2 (by decide))).trans (B5_of_untouched m ρ c main_arg2 (by decide) (by decide) (by decide) (by decide) (by decide)),
    (h c _ (mem_uc main_arg3 (by decide))).trans (B5_of_untouched m ρ c main_arg3 (by decide) (by decide) (by decide) (by decide) (by decide)),
    (h c _ (mem_uc main_arg4 (by decide))).trans (B5_of_untouched m ρ c main_arg4 (by decide) (by decide) (by decide) (by decide) (by decide)),
    (h c _ (mem_uc main_arg5 (by decide))).trans (B5_of_untouched m ρ c main_arg5 (by decide) (by decide) (by decide) (by decide) (by decide)),
    (h c _ (mem_uc main_arg6 (by decide))).trans (B5_of_untouched m ρ c main_arg6 (by decide) (by decide) (by decide) (by decide) (by decide)),
    (h c _ (mem_uc main_arg7 (by decide))).trans (B5_of_untouched m ρ c main_arg7 (by decide) (by decide) (by decide) (by decide) (by decide)),
    (h c _ (mem_uc main_arg8 (by decide))).trans (B5_of_untouched m ρ c main_arg8 (by decide) (by decide) (by decide) (by decide) (by decide)),
    (h c _ (mem_uc main_arg9 (by decide))).trans (B5_of_untouched m ρ c main_arg9 (by decide) (by decide) (by decide) (by decide) (by decide)),
    (h c _ (mem_uc main_arg10 (by decide))).trans (B5_of_untouched m ρ c main_arg10 (by decide) (by decide) (by decide) (by decide) (by decide)),
    (h c _ (mem_uc main_arg11 (by decide))).trans (B5_of_untouched m ρ c main_arg11 (by decide) (by decide) (by decide) (by decide) (by decide)),
    (h c _ (mem_uc main_arg12 (by decide))).trans (B5_of_untouched m ρ c main_arg12 (by decide) (by decide) (by decide) (by decide) (by decide))⟩) (run_all m ρ)

end Cert.KernelIdeal.KF

end
-- ==== Proof.KReg0b.lean ====
/-
  The first bi-interaction layer's pallas_call as one step of the program's run: for any contents `V` of the
  core's buffers at its entry, what each window's staging buffer holds at each grid point, the body's effect on
  them (six blocks read whole, one 5000×64 value stored over the whole output block), and the obligation the
  pipeline's launch asks of the body at every point. Stated for every float instance.
-/
import proofs.«119050_j61040075210791_1_alg».proof.Proof.Gen.Kernel.Launch
import proofs.«119050_j61040075210791_1_alg».proof.Proof.Gen.Kernel.Skeleton
import proofs.«119050_j61040075210791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first bi-interaction layer's pallas_call, at the buffer contents `V` it is entered from

Twenty grid points; point `t` stages rows 5000·t … 5000·t+4999 of the two 100000×64 operands, the two whole
weight matrices and the two whole bias rows, and writes back 5000 rows of the result. The body reads its six
input blocks whole, computes one 5000×64 value and stores it over the whole output block. -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or not
    (an unfetched window's block index has not moved); one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0
abbrev rO0 : Rect S5000x64 := Rect.unit (s := S5000x64) ![0, 0] S5000x64.size inb_S5000x64_S5000x64_0_0

/-- The value the body stores, from the six input blocks: the normalised sum of the two branches. -/
def val0 (x0 x1 : Vec F S5000x64 .f32) (x2 : Vec F S64x64 .bf16) (x3 : Vec F S1x64 .f32) (x4 : Vec F S64x64 .bf16) (x5 : Vec F S1x64 .f32) :
    FVec F S5000x64 .f32 :=
  k0_pay1 (k0_pay2 (View.ld x0 rA0) (View.ld x1 rA0) (View.ld x2 rW0) (View.ld x3 rB0) (View.ld x4 rW0) (View.ld x5 rB0))
    (k0_pay3 (View.ld x0 rA0) (View.ld x1 rA0) (View.ld x2 rW0) (View.ld x3 rB0) (View.ld x4 rW0) (View.ld x5 rB0))

/-- The output window's staging buffer after the body: its one store, over the whole buffer. -/
def out0_6 (x0 x1 : Vec F S5000x64 .f32) (x2 : Vec F S64x64 .bf16) (x3 : Vec F S1x64 .f32) (x4 : Vec F S64x64 .bf16) (x5 : Vec F S1x64 .f32) :
    Vec F S5000x64 .f32 :=
  View.canon [⟨rO0, val0 x0 x1 x2 x3 x4 x5⟩]

/-- The one store covers the buffer. -/
theorem cover0_6 (p0 : Vec F S5000x64 .f32) (y : S5000x64.Idx) :
    ∃ pc ∈ ([⟨rO0, p0⟩] : List (View.Piece (Elt F) S5000x64 .f32)), y ∈ pc.1.set :=
  View.cover_of_tiled [⟨rO0, p0⟩] S5000x64.size (by rfl) y

/-! ## The body's triple -/

set_option maxHeartbeats 4000000 in
/-- The body on whole staging memrefs — the inputs' at contents `x0 … x5`, the output's at anything — runs to the
    continuation with the inputs' as they were and the output's at `out0_6` of the inputs. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x64 .bf16) (harg3 : arg3.IsWhole) (arg4 : Memref sig .tc .vmem S1x64 .f32) (harg4 : arg4.IsWhole)
    (arg5 : Memref sig .tc .vmem S64x64 .bf16) (harg5 : arg5.IsWhole) (arg6 : Memref sig .tc .vmem S1x64 .f32) (harg6 : arg6.IsWhole)
    (arg7 : Memref sig .tc .vmem S5000x64 .f32) (harg7 : arg7.IsWhole)
    (x0 x1 : Vec F S5000x64 .f32) (x2 : Vec F S64x64 .bf16) (x3 : Vec F S1x64 .f32) (x4 : Vec F S64x64 .bf16) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__bi_layer_kernel i arg1 harg1 arg2 harg2 arg3 harg3 arg4 harg4 arg5 harg5 arg6 harg6 arg7 harg7) K := by
  simp only [cc0__bi_layer_kernel_eq_skeleton]; unfold cc0__bi_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data -/

/-- The pipeline's proof data on core `c`: the arrays as the region finds them; after the body at point `t` each
    input's buffer still at its block and the output's at `out0_6` of the six input blocks; the invariant is the rest
    of the core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.KF

end
-- ==== Proof.KReg1b.lean ====
/-
  The second bi-interaction layer's pallas_call as one step of the program's run: for any contents `V` of the
  core's buffers at its entry, what each window's staging buffer holds at each grid point, the body's effect on
  them (six blocks read whole, one 5000×32 value stored over the whole output block), and the obligation the
  pipeline's launch asks of the body at every point. Stated for every float instance.
-/
import proofs.«119050_j61040075210791_1_alg».proof.Proof.Gen.Kernel.Launch
import proofs.«119050_j61040075210791_1_alg».proof.Proof.Gen.Kernel.Skeleton
import proofs.«119050_j61040075210791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second bi-interaction layer's pallas_call, at the buffer contents `V` it is entered from

Twenty grid points; point `t` stages rows 5000·t … 5000·t+4999 of the two 100000×64 operands, the two whole
64×32 weight matrices and the two whole bias rows, and writes back 5000 rows of the result. The body reads its six
input blocks whole, computes one 5000×32 value and stores it over the whole output block. -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or not
    (an unfetched window's block index has not moved); one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rA1 : Rect S5000x64 := Rect.unit (s := S5000x64) ![0, 0] S5000x64.size inb_S5000x64_S5000x64_0_0
abbrev rW1 : Rect S64x32 := Rect.unit (s := S64x32) ![0, 0] S64x32.size inb_S64x32_S64x32_0_0
abbrev rB1 : Rect S1x32 := Rect.unit (s := S1x32) ![0, 0] S1x32.size inb_S1x32_S1x32_0_0
abbrev rO1 : Rect S5000x32 := Rect.unit (s := S5000x32) ![0, 0] S5000x32.size inb_S5000x32_S5000x32_0_0

/-- The value the body stores, from the six input blocks: the normalised sum of the two branches. -/
def val1 (x0 x1 : Vec F S5000x64 .f32) (x2 : Vec F S64x32 .bf16) (x3 : Vec F S1x32 .f32) (x4 : Vec F S64x32 .bf16) (x5 : Vec F S1x32 .f32) :
    FVec F S5000x32 .f32 :=
  k1_pay1 (k1_pay2 (View.ld x0 rA1) (View.ld x1 rA1) (View.ld x2 rW1) (View.ld x3 rB1) (View.ld x4 rW1) (View.ld x5 rB1))
    (k1_pay3 (View.ld x0 rA1) (View.ld x1 rA1) (View.ld x2 rW1) (View.ld x3 rB1) (View.ld x4 rW1) (View.ld x5 rB1))

/-- The output window's staging buffer after the body: its one store, over the whole buffer. -/
def out1_6 (x0 x1 : Vec F S5000x64 .f32) (x2 : Vec F S64x32 .bf16) (x3 : Vec F S1x32 .f32) (x4 : Vec F S64x32 .bf16) (x5 : Vec F S1x32 .f32) :
    Vec F S5000x32 .f32 :=
  View.canon [⟨rO1, val1 x0 x1 x2 x3 x4 x5⟩]

/-- The one store covers the buffer. -/
theorem cover1_6 (p0 : Vec F S5000x32 .f32) (y : S5000x32.Idx) :
    ∃ pc ∈ ([⟨rO1, p0⟩] : List (View.Piece (Elt F) S5000x32 .f32)), y ∈ pc.1.set :=
  View.cover_of_tiled [⟨rO1, p0⟩] S5000x32.size (by rfl) y

/-! ## The body's triple -/

set_option maxHeartbeats 4000000 in
/-- The body on whole staging memrefs — the inputs' at contents `x0 … x5`, the output's at anything — runs to the
    continuation with the inputs' as they were and the output's at `out1_6` of the inputs. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x32 .bf16) (harg3 : arg3.IsWhole) (arg4 : Memref sig .tc .vmem S1x32 .f32) (harg4 : arg4.IsWhole)
    (arg5 : Memref sig .tc .vmem S64x32 .bf16) (harg5 : arg5.IsWhole) (arg6 : Memref sig .tc .vmem S1x32 .f32) (harg6 : arg6.IsWhole)
    (arg7 : Memref sig .tc .vmem S5000x32 .f32) (harg7 : arg7.IsWhole)
    (x0 x1 : Vec F S5000x64 .f32) (x2 : Vec F S64x32 .bf16) (x3 : Vec F S1x32 .f32) (x4 : Vec F S64x32 .bf16) (x5 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__bi_layer_kernel i arg1 harg1 arg2 harg2 arg3 harg3 arg4 harg4 arg5 harg5 arg6 harg6 arg7 harg7) K := by
  simp only [cc1__bi_layer_kernel_eq_skeleton]; unfold cc1__bi_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The proof data -/

/-- The pipeline's proof data on core `c`: the arrays as the region finds them; after the body at point `t` each
    input's buffer still at its block and the output's at `out1_6` of the six input blocks; the invariant is the rest
    of the core's scoped memory and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.KF

end
-- ==== Proof.KRunb.lean ====
/-
  The whole run of the kernel program: host operations, the first layer's pallas_call, host operations, the second
  layer's pallas_call, and the final concatenation. The contents of the core's unscoped buffers are followed from one
  boundary to the next — a host stretch applies its operations in order; a pallas_call leaves each of its seven arrays
  at what its pipeline's write-backs make of it (the six inputs unchanged) and every other buffer as found — and the
  run is stated with every unscoped buffer's final contents in its post. The frame claim (every argument array ends
  as launched) is read off it: no host operation and no pallas_call writes an argument. Stated for every float instance.
-/
import proofs.«119050_j61040075210791_1_alg».proof.Proof.KReg0b
import proofs.«119050_j61040075210791_1_alg».proof.Proof.KReg1b
import proofs.«119050_j61040075210791_1_alg».proof.Proof.Gen.Kernel.Regions

set_option maxRecDepth 16384

noncomputable section

namespace Cert.Kernel.KF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the first stretch of host operations: the first pallas_call's entry. -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At the first pallas_call's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second stretch of host operations: the second pallas_call's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the second pallas_call's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the last host operation (the concatenation): the contents the program ends with. -/
abbrev B5 : Dev nD → Valuation τ sig (Elt F) := fun c => StableHlo.after hostOps2 (B4 m ρ c)

/-- A buffer that no host operation writes and that is no array of either pallas_call ends as launched. -/
theorem B5_of_untouched (c : Dev nD) (r : Ref sig .tc) (h0 : r ∉ hostOps0_W) (h1 : r ∉ hostOps1_W) (h2 : r ∉ hostOps2_W)
    (hr0 : ∀ w, Pipeline.arrRef spec0 w ≠ r) (hr1 : ∀ w, Pipeline.arrRef spec1 w ≠ r) :
    B5 m ρ c (Proc.devRef .tc r) = m ((c : Thread nD τ).loc r) :=
  calc B5 m ρ c (Proc.devRef .tc r)
    _ = B4 m ρ c (Proc.devRef .tc r) := StableHlo.after_of_writes_sub hostOps2 _ hostOps2_writes h2
    _ = B3 m ρ c (Proc.devRef .tc r) := B4_of_ne m ρ c r hr1
    _ = B2 m ρ c (Proc.devRef .tc r) := StableHlo.after_of_writes_sub hostOps1 _ hostOps1_writes h1
    _ = B1 m ρ c (Proc.devRef .tc r) := B2_of_ne m ρ c r hr0
    _ = B0 m ρ c (Proc.devRef .tc r) := StableHlo.after_of_writes_sub hostOps0 _ hostOps0_writes h0
    _ = m ((c : Thread nD τ).loc r) := rfl

/-! ## The proof data family and the thread state -/

/-- Each pipeline's proof data at its pallas_call's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at some state. -/
abbrev Tₙ (c : Dev nD) : sProp 𝕄 := iprop(StableHlo.held (c : Thread nD τ) (Pipeline.ucRefs τ sig) (B5 m ρ c) ∗ ∃ r, prngReg c r)

/-! ## The pallas_calls as segments -/

set_option backward.isDefEq.respectTransparency.types false in
/-- The first pallas_call as a segment of the run: entered with every unscoped buffer at `B1`, left with them at
    `B2`. Its seven arrays are split out of the unscoped buffers at entry and put back, at what the pipeline leaves in
    them, at exit; the generator register passes into the pipeline's invariant and out; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call as a segment of the run: entered with every unscoped buffer at `B3`, left with them at
    `B4`. Its seven arrays are split out of the unscoped buffers at entry and put back, at what the pipeline leaves in
    them, at exit; the generator register passes into the pipeline's invariant and out; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's five segments in order. -/
abbrev ksegs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]
/-- The program is the run of its segments. -/
theorem main_run (c : Dev nD) : main (F := F) c = Pipeline.Seg.run (ksegs m ρ) := (main_chain c).trans (by chain_rfl)

set_option backward.isDefEq.respectTransparency.types false in
/-- From any memory with zero counters, every weakly fair execution of the program on the TensorCores terminates,
    nothing faulting, and in every final state every unscoped buffer of core `c` holds `B5 m ρ c` of it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (ksegs m ρ)
    (fun c Q => by rw [main_run m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c =>
      (show (iprop(StableHlo.held (c : Thread nD τ) (Pipeline.ucRefs τ sig) (B5 m ρ c) ∗ R c) : sProp 𝕄)
          ⊢ iprop(Tₙ m ρ c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (B5_of_untouched m ρ c main_arg0 (by decide) (by decide) (by decide) (by decide) (by decide)),
    (h c _ (mem_uc main_arg1 (by decide))).trans (B5_of_untouched m ρ c main_arg1 (by decide) (by decide) (by decide) (by decide) (by decide)),
    (h c _ (mem_uc main_arg2 (by decide))).trans (B5_of_untouched m ρ c main_arg2 (by decide) (by decide) (by decide) (by decide) (by decide)),
    (h c _ (mem_uc main_arg3 (by decide))).trans (B5_of_untouched m ρ c main_arg3 (by decide) (by decide) (by decide) (by decide) (by decide)),
    (h c _ (mem_uc main_arg4 (by decide))).trans (B5_of_untouched m ρ c main_arg4 (by decide) (by decide) (by decide) (by decide) (by decide)),
    (h c _ (mem_uc main_arg5 (by decide))).trans (B5_of_untouched m ρ c main_arg5 (by decide) (by decide) (by decide) (by decide) (by decide)),
    (h c _ (mem_uc main_arg6 (by decide))).trans (B5_of_untouched m ρ c main_arg6 (by decide) (by decide) (by decide) (by decide) (by decide)),
    (h c _ (mem_uc main_arg7 (by decide))).trans (B5_of_untouched m ρ c main_arg7 (by decide) (by decide) (by decide) (by decide) (by decide)),
    (h c _ (mem_uc main_arg8 (by decide))).trans (B5_of_untouched m ρ c main_arg8 (by decide) (by decide) (by decide) (by decide) (by decide)),
    (h c _ (mem_uc main_arg9 (by decide))).trans (B5_of_untouched m ρ c main_arg9 (by decide) (by decide) (by decide) (by decide) (by decide)),
    (h c _ (mem_uc main_arg10 (by decide))).trans (B5_of_untouched m ρ c main_arg10 (by decide) (by decide) (by decide) (by decide) (by decide)),
    (h c _ (mem_uc main_arg11 (by decide))).trans (B5_of_untouched m ρ c main_arg11 (by decide) (by decide) (by decide) (by decide) (by decide)),
    (h c _ (mem_uc main_arg12 (by decide))).trans (B5_of_untouched m ρ c main_arg12 (by decide) (by decide) (by decide) (by decide) (by decide))⟩) (run_all m ρ)

end Cert.Kernel.KF

end
-- ==== Proof.Terms.lean ====
/-
  The reference's intermediate values as named functions of the argument arrays, each written with the
  same host operations the printed reference program applies, in the same order:
  * `ego0`     — the user table stacked on the entity table (100000 rows of 64);
  * `spmm`     — the sparse product A·x in coordinate form: row `cols e` of `x` (a negative index counted
                  from the end) scaled by `vals e`, added into row `rows e` of a zero array;
  * `layer64`, `layer32` — one bi-interaction layer: leaky-relu((ego + side)·W1 + b1) +
                  leaky-relu((ego ⊙ side)·W2 + b2), each row then divided by max(its Euclidean norm, ε);
  * `result`   — the three embeddings side by side (64 + 64 + 32 columns).
  Nothing is proved here; the run of the reference and the kernel's value are both stated against these names.
-/
import proofs.«119050_j61040075210791_1_alg».proof.ReferenceIdeal
import proofs.«119050_j61040075210791_1_alg».proof.Proof.Gen.ReferenceIdeal

noncomputable section

namespace Cert.ReferenceIdeal.Terms

open Idealize.ShloMosaic Idealize.SL.Sem Cert.ReferenceIdeal
open Cert.ReferenceIdeal.Facts₀

variable {F : FTy → Type} [FloatOps F]

/-- The contents type of a buffer of shape `s` and element type `e`. -/
abbrev C (F : FTy → Type) (s : Shape) (e : EltTy) : Type := (⟨s, e⟩ : BufTy).Contents (Elt F)

/-- The user table stacked on the entity table. -/
def ego0 (a0 : C F S30000x64 .f32) (a1 : C F S70000x64 .f32) : C F S100000x64 .f32 :=
  concatenate S100000x64 0 [⟨S30000x64, a0⟩, ⟨S70000x64, a1⟩] concatenates_S30000x64_S70000x64_S100000x64_d0

/-- The column indices as the gather takes them: a negative index has 100000 added; one column. -/
def colIdx (cols : C F S1600000 .i32) : C F S1600000x1 .i32 :=
  (broadcastInDim S1600000x1 ![0] bcast_S1600000_S1600000x1_0 : C F S1600000 .i32 → C F S1600000x1 .i32)
    ((select : C F S1600000 .i1 → C F S1600000 .i32 → C F S1600000 .i32 → C F S1600000 .i32)
      ((cmpi .slt : C F S1600000 .i32 → C F S1600000 .i32 → C F S1600000 .i1) cols
        ((broadcastInDim S1600000 ![] bcast_S_S1600000 : C F S_ .i32 → C F S1600000 .i32) (constantI S_ 32 0#32)))
      ((addi : C F S1600000 .i32 → C F S1600000 .i32 → C F S1600000 .i32) cols
        ((broadcastInDim S1600000 ![] bcast_S_S1600000 : C F S_ .i32 → C F S1600000 .i32) (constantI S_ 32 100000#32)))
      cols)

/-- The edge weights repeated along the 64 columns. -/
def valsWide (vals : C F S1600000 .f32) : C F S1600000x64 .f32 :=
  (broadcastInDim S1600000x64 ![0, 1] bcast_S1600000x1_S1600000x64_0_1 : C F S1600000x1 .f32 → C F S1600000x64 .f32)
    ((broadcastInDim S1600000x1 ![0] bcast_S1600000_S1600000x1_0 : C F S1600000 .f32 → C F S1600000x1 .f32) vals)

/-- The sparse product: gather the rows `cols`, scale by `vals`, add into the rows `rows` of zeros. -/
def spmm (x : C F S100000x64 .f32) (vals : C F S1600000 .f32) (rows cols : C F S1600000 .i32) : C F S100000x64 .f32 :=
  Host.scatterAdd scatter_S100000x64_S1600000x1_S1600000x64_1_0_0_1
    ((broadcastInDim S100000x64 ![] bcast_S_S100000x64 : C F S_ .f32 → C F S100000x64 .f32) (constant S_ .f32 0x00000000#32))
    ((broadcastInDim S1600000x1 ![0] bcast_S1600000_S1600000x1_0 : C F S1600000 .i32 → C F S1600000x1 .i32) rows)
    ((mulf : C F S1600000x64 .f32 → C F S1600000x64 .f32 → C F S1600000x64 .f32)
      (Host.gather gather_S100000x64_S1600000x1_S1600000x64_1_0_n_n_0_1_164 x (colIdx cols))
      (valsWide vals))

/-- jax's leaky relu on 64 columns: `x` where `x ≥ 0`, else `0.01·x` (the f32 nearest 0.01). -/
def leaky64 (x : C F S100000x64 .f32) : C F S100000x64 .f32 :=
  (select : C F S100000x64 .i1 → C F S100000x64 .f32 → C F S100000x64 .f32 → C F S100000x64 .f32)
    ((cmpf .oge : C F S100000x64 .f32 → C F S100000x64 .f32 → C F S100000x64 .i1) x
      ((broadcastInDim S100000x64 ![] bcast_S_S100000x64 : C F S_ .f32 → C F S100000x64 .f32) (constant S_ .f32 0x00000000#32)))
    x
    ((mulf : C F S100000x64 .f32 → C F S100000x64 .f32 → C F S100000x64 .f32)
      ((broadcastInDim S100000x64 ![] bcast_S_S100000x64 : C F S_ .f32 → C F S100000x64 .f32) (constant S_ .f32 0x3C23D70A#32)) x)

/-- The same on 32 columns. -/
def leaky32 (x : C F S100000x32 .f32) : C F S100000x32 .f32 :=
  (select : C F S100000x32 .i1 → C F S100000x32 .f32 → C F S100000x32 .f32 → C F S100000x32 .f32)
    ((cmpf .oge : C F S100000x32 .f32 → C F S100000x32 .f32 → C F S100000x32 .i1) x
      ((broadcastInDim S100000x32 ![] bcast_S_S100000x32 : C F S_ .f32 → C F S100000x32 .f32) (constant S_ .f32 0x00000000#32)))
    x
    ((mulf : C F S100000x32 .f32 → C F S100000x32 .f32 → C F S100000x32 .f32)
      ((broadcastInDim S100000x32 ![] bcast_S_S100000x32 : C F S_ .f32 → C F S100000x32 .f32) (constant S_ .f32 0x3C23D70A#32)) x)

/-- A bias of 64 entries repeated along the 100000 rows. -/
def bias64 (b : C F S64 .f32) : C F S100000x64 .f32 :=
  (broadcastInDim S100000x64 ![0, 1] bcast_S1x64_S100000x64_0_1 : C F S1x64 .f32 → C F S100000x64 .f32)
    ((broadcastInDim S1x64 ![1] bcast_S64_S1x64_1 : C F S64 .f32 → C F S1x64 .f32) b)

/-- A bias of 32 entries repeated along the 100000 rows. -/
def bias32 (b : C F S32 .f32) : C F S100000x32 .f32 :=
  (broadcastInDim S100000x32 ![0, 1] bcast_S1x32_S100000x32_0_1 : C F S1x32 .f32 → C F S100000x32 .f32)
    ((broadcastInDim S1x32 ![1] bcast_S32_S1x32_1 : C F S32 .f32 → C F S1x32 .f32) b)

/-- The sum of the two transformed branches, 64 columns, before the normalisation. -/
def pre64 (ego side : C F S100000x64 .f32) (W1 : C F S64x64 .f32) (b1 : C F S64 .f32) (W2 : C F S64x64 .f32) (b2 : C F S64 .f32) :
    C F S100000x64 .f32 :=
  (addf : C F S100000x64 .f32 → C F S100000x64 .f32 → C F S100000x64 .f32)
    (leaky64 ((addf : C F S100000x64 .f32 → C F S100000x64 .f32 → C F S100000x64 .f32)
      (Host.dotGeneral dot_S100000x64_S64x64_S100000x64_1_0_0_1_n_n none
        ((addf : C F S100000x64 .f32 → C F S100000x64 .f32 → C F S100000x64 .f32) ego side) W1) (bias64 b1)))
    (leaky64 ((addf : C F S100000x64 .f32 → C F S100000x64 .f32 → C F S100000x64 .f32)
      (Host.dotGeneral dot_S100000x64_S64x64_S100000x64_1_0_0_1_n_n none
        ((mulf : C F S100000x64 .f32 → C F S100000x64 .f32 → C F S100000x64 .f32) ego side) W2) (bias64 b2)))

/-- The same with 32 output columns. -/
def pre32 (ego side : C F S100000x64 .f32) (W1 : C F S64x32 .f32) (b1 : C F S32 .f32) (W2 : C F S64x32 .f32) (b2 : C F S32 .f32) :
    C F S100000x32 .f32 :=
  (addf : C F S100000x32 .f32 → C F S100000x32 .f32 → C F S100000x32 .f32)
    (leaky32 ((addf : C F S100000x32 .f32 → C F S100000x32 .f32 → C F S100000x32 .f32)
      (Host.dotGeneral dot_S100000x64_S64x32_S100000x32_1_0_0_1_n_n none
        ((addf : C F S100000x64 .f32 → C F S100000x64 .f32 → C F S100000x64 .f32) ego side) W1) (bias32 b1)))
    (leaky32 ((addf : C F S100000x32 .f32 → C F S100000x32 .f32 → C F S100000x32 .f32)
      (Host.dotGeneral dot_S100000x64_S64x32_S100000x32_1_0_0_1_n_n none
        ((mulf : C F S100000x64 .f32 → C F S100000x64 .f32 → C F S100000x64 .f32) ego side) W2) (bias32 b2)))

/-- Each row's divisor: max(sqrt(0 + Σ_j s(r,j)²), ε), as a column, for 64 columns. -/
def denom64 (s : C F S100000x64 .f32) : C F S100000x1 .f32 :=
  (maximumf : C F S100000x1 .f32 → C F S100000x1 .f32 → C F S100000x1 .f32)
    ((Host.sqrt : C F S100000x1 .f32 → C F S100000x1 .f32)
      ((broadcastInDim S100000x1 ![0] bcast_S100000_S100000x1_0 : C F S100000 .f32 → C F S100000x1 .f32)
        (Host.reduceAdd ((mulf : C F S100000x64 .f32 → C F S100000x64 .f32 → C F S100000x64 .f32) s s)
          (constant S_ .f32 0x00000000#32) reducesTo_S100000x64_S100000_d1 h_S_)))
    ((broadcastInDim S100000x1 ![] bcast_S_S100000x1 : C F S_ .f32 → C F S100000x1 .f32) (constant S_ .f32 0x2B8CBCCC#32))

/-- The same for 32 columns. -/
def denom32 (s : C F S100000x32 .f32) : C F S100000x1 .f32 :=
  (maximumf : C F S100000x1 .f32 → C F S100000x1 .f32 → C F S100000x1 .f32)
    ((Host.sqrt : C F S100000x1 .f32 → C F S100000x1 .f32)
      ((broadcastInDim S100000x1 ![0] bcast_S100000_S100000x1_0 : C F S100000 .f32 → C F S100000x1 .f32)
        (Host.reduceAdd ((mulf : C F S100000x32 .f32 → C F S100000x32 .f32 → C F S100000x32 .f32) s s)
          (constant S_ .f32 0x00000000#32) reducesTo_S100000x32_S100000_d1 h_S_)))
    ((broadcastInDim S100000x1 ![] bcast_S_S100000x1 : C F S_ .f32 → C F S100000x1 .f32) (constant S_ .f32 0x2B8CBCCC#32))

/-- Rows divided by their divisor, 64 columns. -/
def normalize64 (s : C F S100000x64 .f32) : C F S100000x64 .f32 :=
  (Host.divf : C F S100000x64 .f32 → C F S100000x64 .f32 → C F S100000x64 .f32) s
    ((broadcastInDim S100000x64 ![0, 1] bcast_S100000x1_S100000x64_0_1 : C F S100000x1 .f32 → C F S100000x64 .f32) (denom64 s))

/-- Rows divided by their divisor, 32 columns. -/
def normalize32 (s : C F S100000x32 .f32) : C F S100000x32 .f32 :=
  (Host.divf : C F S100000x32 .f32 → C F S100000x32 .f32 → C F S100000x32 .f32) s
    ((broadcastInDim S100000x32 ![0, 1] bcast_S100000x1_S100000x32_0_1 : C F S100000x1 .f32 → C F S100000x32 .f32) (denom32 s))

/-- One bi-interaction layer, 64 → 64. -/
def layer64 (ego side : C F S100000x64 .f32) (W1 : C F S64x64 .f32) (b1 : C F S64 .f32) (W2 : C F S64x64 .f32) (b2 : C F S64 .f32) :
    C F S100000x64 .f32 :=
  normalize64 (pre64 ego side W1 b1 W2 b2)

/-- One bi-interaction layer, 64 → 32. -/
def layer32 (ego side : C F S100000x64 .f32) (W1 : C F S64x32 .f32) (b1 : C F S32 .f32) (W2 : C F S64x32 .f32) (b2 : C F S32 .f32) :
    C F S100000x32 .f32 :=
  normalize32 (pre32 ego side W1 b1 W2 b2)

/-- The three embeddings side by side. -/
def cat3 (e0 e1 : C F S100000x64 .f32) (e2 : C F S100000x32 .f32) : C F S100000x160 .f32 :=
  concatenate S100000x160 1 [⟨S100000x64, e0⟩, ⟨S100000x64, e1⟩, ⟨S100000x32, e2⟩]
    concatenates_S100000x64_S100000x64_S100000x32_S100000x160_d1

/-- The first layer's embedding from the thirteen arguments. -/
def emb1 (a0 : C F S30000x64 .f32) (a1 : C F S70000x64 .f32) (a2 : C F S1600000 .f32) (a3 : C F S64x64 .f32) (a4 : C F S64 .f32)
    (a5 : C F S64x64 .f32) (a6 : C F S64 .f32) (a11 a12 : C F S1600000 .i32) : C F S100000x64 .f32 :=
  layer64 (ego0 a0 a1) (spmm (ego0 a0 a1) a2 a11 a12) a3 a4 a5 a6

/-- The second layer's embedding. -/
def emb2 (a0 : C F S30000x64 .f32) (a1 : C F S70000x64 .f32) (a2 : C F S1600000 .f32) (a3 : C F S64x64 .f32) (a4 : C F S64 .f32)
    (a5 : C F S64x64 .f32) (a6 : C F S64 .f32) (a7 : C F S64x32 .f32) (a8 : C F S32 .f32) (a9 : C F S64x32 .f32) (a10 : C F S32 .f32)
    (a11 a12 : C F S1600000 .i32) : C F S100000x32 .f32 :=
  layer32 (emb1 a0 a1 a2 a3 a4 a5 a6 a11 a12) (spmm (emb1 a0 a1 a2 a3 a4 a5 a6 a11 a12) a2 a11 a12) a7 a8 a9 a10

/-- What the reference returns. -/
def result (a0 : C F S30000x64 .f32) (a1 : C F S70000x64 .f32) (a2 : C F S1600000 .f32) (a3 : C F S64x64 .f32) (a4 : C F S64 .f32)
    (a5 : C F S64x64 .f32) (a6 : C F S64 .f32) (a7 : C F S64x32 .f32) (a8 : C F S32 .f32) (a9 : C F S64x32 .f32) (a10 : C F S32 .f32)
    (a11 a12 : C F S1600000 .i32) : C F S100000x160 .f32 :=
  cat3 (ego0 a0 a1) (emb1 a0 a1 a2 a3 a4 a5 a6 a11 a12) (emb2 a0 a1 a2 a3 a4 a5 a6 a7 a8 a9 a10 a11 a12)

end Cert.ReferenceIdeal.Terms

end
-- ==== Proof.BridgeSpec.lean ====
/-
  One bi-interaction layer written row by row over the extended reals: for a row with entries
  `e k`, `s k` (k < 64), weights `W k q` and bias `b q` (q < D),
    pre q = lrelu (Σ_k (e k + s k)·W1 k q + b1 q) + lrelu (Σ_k (e k · s k)·W2 k q + b2 q),
    out q = pre q / max (√(Σ_j pre j · pre j), ε),
  with `lrelu c x = x` for `0 ≤ x` and `c·x` otherwise. Both programs are read against these formulas.
-/
import Mathlib.Data.EReal.Basic
import Idealize.ShloMosaic.PureOps.Ideal

noncomputable section

namespace Cert.Bridge

open Idealize.ShloMosaic

/-- Local row `p` of row block `t` is global row `5000·t + p`. -/
def row (t : Fin 20) (p : Fin 5000) : Fin 100000 := ⟨5000 * t.val + p.val, by omega⟩

/-- The leaky relu of slope `c`: `x` where `0 ≤ x`, else `c·x`. -/
def lrelu (c x : EReal) : EReal := if 0 ≤ x then x else c * x

/-- The same function written with a strict comparison: the two agree at `0` because `c·0 = 0`. -/
theorem lrelu_of_lt (c x : EReal) : (if 0 < x then x else c * x) = lrelu c x := by
  unfold lrelu
  by_cases h : 0 < x
  · rw [if_pos h, if_pos h.le]
  · by_cases h0 : 0 ≤ x
    · have hx : x = 0 := le_antisymm (not_lt.mp h) h0
      rw [if_neg h, if_pos h0, hx, mul_zero]
    · rw [if_neg h, if_neg h0]

variable {D : Nat}

/-- One transformed branch at column `q`: the leaky relu of the row `u` times column `q` of `W`, plus the bias. -/
def branch (c : EReal) (u : Fin 64 → EReal) (W : Fin 64 → Fin D → EReal) (b : Fin D → EReal) (q : Fin D) : EReal :=
  lrelu c ((∑ k : Fin 64, u k * W k q) + b q)

/-- The sum of the two branches at column `q`, before the normalisation. -/
def preRow (c : EReal) (e s : Fin 64 → EReal) (W1 : Fin 64 → Fin D → EReal) (b1 : Fin D → EReal)
    (W2 : Fin 64 → Fin D → EReal) (b2 : Fin D → EReal) (q : Fin D) : EReal :=
  branch c (fun k => e k + s k) W1 b1 q + branch c (fun k => e k * s k) W2 b2 q

/-- A row's divisor: the larger of its Euclidean norm and `ε`. -/
def den (ε : EReal) (v : Fin D → EReal) : EReal := max (Ideal.sqrt (∑ j : Fin D, v j * v j)) ε

/-- The normalised entry at column `q`. -/
def outRow (c ε : EReal) (e s : Fin 64 → EReal) (W1 : Fin 64 → Fin D → EReal) (b1 : Fin D → EReal)
    (W2 : Fin 64 → Fin D → EReal) (b2 : Fin D → EReal) (q : Fin D) : EReal :=
  Ideal.div (preRow c e s W1 b1 W2 b2 q) (den ε (preRow c e s W1 b1 W2 b2))

end Cert.Bridge

end
-- ==== Proof.BridgeLib.lean ====
/-
  What each operation of the two layer programs reads at an index, over the extended reals:
  * the column forms of a broadcast and of a shape cast ([a,1] → [a,b], [a] → [a,1], [b] → [1,b]);
  * a sum along a row, as the kernel takes it (an accumulator that is dropped) and as the host takes it
    (an initial value that is added);
  * the plain product of an m×k by a k×n matrix, on the host and into a zero accumulator, as Σ_c A(a,c)·B(c,b);
  * the leaky relu of each program at one element, as the function `lrelu` of the specification.
-/
import Idealize.ShloMosaic.Lib.KernelVsHost
import Idealize.ShloMosaic.Lib.StackMember
import Idealize.ShloMosaic.Lib.ValueLayout
import proofs.«119050_j61040075210791_1_alg».proof.Proof.BridgeSpec

namespace Cert.Bridge

open Idealize.ShloMosaic Idealize.ShloMosaic.ValueIdx

/-- The slope of the leaky relu: the f32 nearest 0.01. -/
noncomputable def slope : EReal := Ideal.ofBits .f32 0x3C23D70A#32

/-- The floor of the divisor: the f32 nearest 1e-12. -/
noncomputable def eps : EReal := Ideal.ofBits .f32 0x2B8CBCCC#32

section Pointwise
variable {s t : Shape}

/-- The host's square root at an index. -/
theorem hostSqrt_apply (x : FVec Ideal s .f32) (i : s.Idx) : Host.sqrt x i = Ideal.sqrt (x i) := rfl

/-- A kernel's square root at an index. -/
theorem sqrt_apply (x : FVec Ideal s .f32) (i : s.Idx) : sqrt x i = Ideal.sqrt (x i) := rfl

/-- The host's quotient at an index. -/
theorem hostDivf_apply (a b : FVec Ideal s .f32) (i : s.Idx) : Host.divf a b i = Ideal.div (a i) (b i) := rfl

/-- A constant the host broadcasts reads its value everywhere. -/
theorem broadcastInDim_constant_apply {φ : FTy} (dims : Fin s.rank → Fin t.rank) (h : s.BroadcastsInDim t dims)
    (b : BitVec φ.bits) (j : t.Idx) : broadcastInDim t dims h (constant (F := Ideal) s φ b) j = Ideal.ofBits φ b := rfl

/-- A kernel's splat of a constant reads its value everywhere. -/
theorem broadcast_ofBits_apply {φ : FTy} (b : BitVec φ.bits) (j : s.Idx) :
    broadcast s (Scalar.ofBits (F := Ideal) φ b) j = Ideal.ofBits φ b := rfl

end Pointwise

section Layout
variable {α : Type}

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the same: `broadcast_in_dim` along both axes. -/
theorem broadcastInDim_a1_ab_apply {a b : ℕ} (h : (⟨2, ![a, 1]⟩ : Shape).BroadcastsInDim ⟨2, ![a, b]⟩ ![0, 1])
    (y : (⟨2, ![a, 1]⟩ : Shape).Idx → α) (p : Fin a) (c : Fin b) :
    broadcastInDim ⟨2, ![a, b]⟩ ![0, 1] h y (ix2 p c) = y (ix2 p (0 : Fin 1)) := by
  refine broadcastInDim_apply ![0, 1] h y (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` laid as a column `[a, 1]` by `broadcast_in_dim` reads, at `(p, u)`, the vector at `p`. -/
theorem broadcastInDim_a_a1_apply {a : ℕ} (h : (⟨1, ![a]⟩ : Shape).BroadcastsInDim ⟨2, ![a, 1]⟩ ![0])
    (y : (⟨1, ![a]⟩ : Shape).Idx → α) (p : Fin a) (u : Fin 1) :
    broadcastInDim ⟨2, ![a, 1]⟩ ![0] h y (ix2 p u) = y (ix1 p) := by
  refine broadcastInDim_apply ![0] h y (ix2 p u) (ix1 p) fun ax => ?_
  match ax with
  | ⟨0, _⟩ =>
    show p.val = if a = 1 then 0 else p.val
    split
    · have := p.isLt; omega
    · rfl

/-- A vector `[b]` laid as a row `[1, b]` by `broadcast_in_dim` reads, at `(u, c)`, the vector at `c`. -/
theorem broadcastInDim_b_1b_apply {b : ℕ} (h : (⟨1, ![b]⟩ : Shape).BroadcastsInDim ⟨2, ![1, b]⟩ ![1])
    (y : (⟨1, ![b]⟩ : Shape).Idx → α) (u : Fin 1) (c : Fin b) :
    broadcastInDim ⟨2, ![1, b]⟩ ![1] h y (ix2 u c) = y (ix1 c) := by
  refine broadcastInDim_apply ![1] h y (ix2 u c) (ix1 c) fun ax => ?_
  match ax with
  | ⟨0, _⟩ =>
    show c.val = if b = 1 then 0 else c.val
    split
    · have := c.isLt; omega
    · rfl

/-- A vector `[a]` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

section Sums

/-- The index a reduction over axis 1 of `[a, b]` inserts at row `p` and coordinate `k` is `(p, k)`. -/
theorem lift_rows {a b : ℕ} (h : (⟨2, ![a, b]⟩ : Shape).Reduces [1] ⟨1, ![a]⟩) (p : Fin a) (k : Fin b) :
    h.lift (ix1 p) k = ix2 p k := by
  funext ax
  apply Fin.ext
  match ax with
  | ⟨0, _⟩ => rfl
  | ⟨1, _⟩ => rfl

/-- A kernel's sum over axis 1 of `[a, b]`, read at row `p`: the sum of the row (the accumulator is dropped). -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_rows h p k)

/-- The host's sum over axis 1 of `[a, b]`, read at row `p`: the initial value plus the sum of the row. -/
theorem hostReduceAdd_rows_apply {a b : ℕ} {u : Shape} (x : FVec Ideal ⟨2, ![a, b]⟩ .f32) (init : u.Idx → Ideal .f32)
    (h' : (⟨2, ![a, b]⟩ : Shape).ReducesTo [1] ⟨1, ![a]⟩) (hu : 0 < u.numel)
    (h : (⟨2, ![a, b]⟩ : Shape).Reduces [1] ⟨1, ![a]⟩) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (init (Shape.Idx.first hu) + ·) (Finset.sum_congr rfl fun k _ => congrArg x (lift_rows h p k))

end Sums

section Products
variable {m k n : ℕ} {φ₁ φ₂ : FTy}

/-- The host's plain product of an m×k by a k×n matrix at `(a, b)`: Σ_c A(a,c)·B(c,b). -/
theorem dotGeneral_mk_kn_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  StackMember.dotGeneral_plain_apply prec A B a b

/-- A kernel's product into a zero accumulator at `(a, b)`: the same sum. -/
theorem matmul_zero_mk_kn_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  rw [matmul_zero_eq_dotGeneral]
  exact dotGeneral_mk_kn_apply w prec A B a b

end Products

section Leaky

/-- A select on a decided proposition is the `if`. -/
theorem select_ofBool {α : Type} (P : Prop) [Decidable P] (x y : α) :
    Scalar.select (BitVec.ofBool (decide P)) x y = if P then x else y := by
  unfold Scalar.select
  by_cases h : P
  · simp [h]
  · simp [h]

/-- The kernel's leaky relu at one element: `x` where `x > 0`, else `slope·x`. -/
theorem kernel_leaky_apply (x : Ideal .f32) :
    Scalar.select (FloatOps.cmpf .ogt x (Scalar.ofBits (F := Ideal) .f32 0x00000000#32)) x
        (FloatOps.mulf (Scalar.ofBits (F := Ideal) .f32 0x3C23D70A#32) x)
      = lrelu slope x := by
  show Scalar.select (BitVec.ofBool (decide (Ideal.ofBits .f32 0x00000000#32 < (x : EReal)))) (x : EReal)
      (Ideal.ofBits .f32 0x3C23D70A#32 * (x : EReal)) = _
  rw [Ideal.ofBits_zero_f32, select_ofBool]
  exact lrelu_of_lt slope x

/-- The reference's leaky relu at one element: `x` where `x ≥ 0`, else `slope·x`. -/
theorem host_leaky_apply (x : Ideal .f32) :
    Scalar.select (FloatOps.cmpf .oge x (Ideal.ofBits .f32 0x00000000#32 : Ideal .f32)) x
        (FloatOps.mulf (Ideal.ofBits .f32 0x3C23D70A#32 : Ideal .f32) x)
      = lrelu slope x := by
  show Scalar.select (BitVec.ofBool (decide (Ideal.ofBits .f32 0x00000000#32 ≤ (x : EReal)))) (x : EReal)
      (Ideal.ofBits .f32 0x3C23D70A#32 * (x : EReal)) = _
  rw [Ideal.ofBits_zero_f32, select_ofBool]
  rfl

end Leaky

end Cert.Bridge
-- ==== Proof.BridgeRef64.lean ====
/-
  The reference's 64-column layer read at an index (r, q): the row formula of the specification applied to
  row r of the two operands, the weights and the biases.
-/
import proofs.«119050_j61040075210791_1_alg».proof.Proof.Terms
import proofs.«119050_j61040075210791_1_alg».proof.Proof.BridgeLib

namespace Cert.Bridge

open Idealize.ShloMosaic Idealize.ShloMosaic.ValueIdx
open Cert.ReferenceIdeal Cert.ReferenceIdeal.Terms Cert.ReferenceIdeal.Facts₀

/-- The bias laid along every row reads, at `(r, q)`, entry `q`. -/
theorem bias64_apply (b : C Ideal S64 .f32) (r : Fin 100000) (q : Fin 64) : bias64 b (ix2 r q) = b (ix1 q) := by
  unfold bias64
  refine (broadcastInDim_oneRow_apply bcast_S1x64_S100000x64_0_1 _ r q).trans ?_
  exact broadcastInDim_b_1b_apply bcast_S64_S1x64_1 b 0 q

/-- The reference's leaky relu at an index. -/
theorem leaky64_apply (x : C Ideal S100000x64 .f32) (j : S100000x64.Idx) : leaky64 x j = lrelu slope (x j) :=
  host_leaky_apply (x j)

/-- The sum of the two branches at `(r, q)`. -/
theorem pre64_apply (ego side : C Ideal S100000x64 .f32) (W1 : C Ideal S64x64 .f32) (b1 : C Ideal S64 .f32)
    (W2 : C Ideal S64x64 .f32) (b2 : C Ideal S64 .f32) (r : Fin 100000) (q : Fin 64) :
    pre64 ego side W1 b1 W2 b2 (ix2 r q)
      = preRow slope (fun k => ego (ix2 r k)) (fun k => side (ix2 r k)) (fun k q => W1 (ix2 k q)) (fun q => b1 (ix1 q))
          (fun k q => W2 (ix2 k q)) (fun q => b2 (ix1 q)) q := by
  unfold pre64
  simp only [addf_apply, leaky64_apply, bias64_apply]
  unfold preRow branch
  refine congrArg₂ (· + ·) (congrArg (lrelu slope) (congrArg (· + b1 (ix1 q)) ?_))
    (congrArg (lrelu slope) (congrArg (· + b2 (ix1 q)) ?_))
  · exact dotGeneral_mk_kn_apply dot_S100000x64_S64x64_S100000x64_1_0_0_1_n_n_wf none (addf ego side) W1 r q
  · exact dotGeneral_mk_kn_apply dot_S100000x64_S64x64_S100000x64_1_0_0_1_n_n_wf none (mulf ego side) W2 r q

/-- A row's divisor, read at `(r, u)` of the column. -/
theorem denom64_apply (s : C Ideal S100000x64 .f32) (r : Fin 100000) (u : Fin 1) :
    denom64 s (ix2 r u) = den eps (fun j : Fin 64 => s (ix2 r j)) := by
  unfold denom64 den
  rw [maximumf_apply, hostSqrt_apply, broadcastInDim_a_a1_apply, hostReduceAdd_rows_apply _ _ _ _ (by decide),
    broadcastInDim_constant_apply, constant_apply, Ideal.ofBits_zero_f32, zero_add]
  simp only [mulf_apply]
  rfl

/-- The layer at `(r, q)`. -/
theorem layer64_apply (ego side : C Ideal S100000x64 .f32) (W1 : C Ideal S64x64 .f32) (b1 : C Ideal S64 .f32)
    (W2 : C Ideal S64x64 .f32) (b2 : C Ideal S64 .f32) (r : Fin 100000) (q : Fin 64) :
    layer64 ego side W1 b1 W2 b2 (ix2 r q)
      = outRow slope eps (fun k => ego (ix2 r k)) (fun k => side (ix2 r k)) (fun k q => W1 (ix2 k q)) (fun q => b1 (ix1 q))
          (fun k q => W2 (ix2 k q)) (fun q => b2 (ix1 q)) q := by
  unfold layer64 normalize64 outRow
  rw [hostDivf_apply, broadcastInDim_a1_ab_apply, denom64_apply]
  simp only [pre64_apply]

end Cert.Bridge
-- ==== Proof.BridgeKer64.lean ====
/-
  The 64-column layer kernel's three payloads read at an index of the row block: the row formula of the
  specification applied to local row p of the two loaded blocks, the loaded weights and the loaded bias rows.
-/
import proofs.«119050_j61040075210791_1_alg».proof.Proof.Gen.KernelIdeal.Skeleton
import proofs.«119050_j61040075210791_1_alg».proof.Proof.BridgeLib

namespace Cert.Bridge

open Idealize.ShloMosaic Idealize.ShloMosaic.ValueIdx
open Cert.KernelIdeal Cert.KernelIdeal.Facts₀

/-- The linear part of one branch as the kernel computes it: the block `u`, rounded to bf16 (the identity here),
    times the weights into a zero accumulator, plus the bias row laid along every row. -/
noncomputable def klin64 (u : FVec Ideal S5000x64 .f32) (w : FVec Ideal S64x64 .bf16) (b : FVec Ideal S1x64 .f32) :
    FVec Ideal S5000x64 .f32 :=
  addf
    (matmul dot_S5000x64_S64x64_S5000x64_1_0_0_1_n_n none (truncf .bf16 u bitsLt_bf16_f32)
      (shapeCast S64x64 w shapeCasts_S64x64_S64x64) (constant S5000x64 .f32 0x00000000#32))
    (broadcastTo S5000x64 (shapeCast S1x64 b shapeCasts_S1x64_S1x64) broadcasts_S1x64_S5000x64)

/-- One branch as the kernel computes it: the leaky relu, written with a strict comparison, of the linear part. -/
noncomputable def kbranch64 (u : FVec Ideal S5000x64 .f32) (w : FVec Ideal S64x64 .bf16) (b : FVec Ideal S1x64 .f32) :
    FVec Ideal S5000x64 .f32 :=
  select (cmpf .ogt (klin64 u w b) (broadcast S5000x64 (Scalar.ofBits .f32 0x00000000#32))) (klin64 u w b)
    (mulf (broadcast S5000x64 (Scalar.ofBits .f32 0x3C23D70A#32)) (klin64 u w b))

/-- The kernel's pre-normalisation payload is the sum of its two branches. -/
theorem k0_pay2_eq (x0 x1 : Vec Ideal S5000x64 .f32) (x2 : Vec Ideal S64x64 .bf16) (x3 : Vec Ideal S1x64 .f32)
    (x4 : Vec Ideal S64x64 .bf16) (x5 : Vec Ideal S1x64 .f32) :
    Gen.k0_pay2 x0 x1 x2 x3 x4 x5
      = addf
          (kbranch64 (addf (shapeCast S5000x64 x0 shapeCasts_S5000x64_S5000x64) (shapeCast S5000x64 x1 shapeCasts_S5000x64_S5000x64)) x2 x3)
          (kbranch64 (mulf (shapeCast S5000x64 x0 shapeCasts_S5000x64_S5000x64) (shapeCast S5000x64 x1 shapeCasts_S5000x64_S5000x64)) x4 x5) :=
  rfl

/-- The linear part at `(p, q)`. -/
theorem klin64_apply (u : FVec Ideal S5000x64 .f32) (w : FVec Ideal S64x64 .bf16) (b : FVec Ideal S1x64 .f32)
    (p : Fin 5000) (q : Fin 64) :
    klin64 u w b (ix2 p q) = (∑ k : Fin 64, u (ix2 p k) * w (ix2 k q)) + b (ix2 (0 : Fin 1) q) := by
  unfold klin64
  rw [addf_apply, shapeCast_self, shapeCast_self]
  refine congrArg₂ (· + ·) ?_ ?_
  · exact matmul_zero_mk_kn_apply (φ₁ := .bf16) (φ₂ := .bf16) dot_S5000x64_S64x64_S5000x64_1_0_0_1_n_n_wf none
      (truncf .bf16 u bitsLt_bf16_f32) w p q
  · exact broadcastTo_1b_ab_apply b broadcasts_S1x64_S5000x64 p q

/-- One branch at `(p, q)`. -/
theorem kbranch64_apply (u : FVec Ideal S5000x64 .f32) (w : FVec Ideal S64x64 .bf16) (b : FVec Ideal S1x64 .f32)
    (p : Fin 5000) (q : Fin 64) :
    kbranch64 u w b (ix2 p q)
      = branch slope (fun k => u (ix2 p k)) (fun k q => w (ix2 k q)) (fun q => b (ix2 (0 : Fin 1) q)) q :=
  (kernel_leaky_apply (klin64 u w b (ix2 p q))).trans (congrArg (lrelu slope) (klin64_apply u w b p q))

/-- The pre-normalisation payload at `(p, q)`. -/
theorem k0_pay2_apply (x0 x1 : Vec Ideal S5000x64 .f32) (x2 : Vec Ideal S64x64 .bf16) (x3 : Vec Ideal S1x64 .f32)
    (x4 : Vec Ideal S64x64 .bf16) (x5 : Vec Ideal S1x64 .f32) (p : Fin 5000) (q : Fin 64) :
    Gen.k0_pay2 x0 x1 x2 x3 x4 x5 (ix2 p q)
      = preRow slope (fun k => x0 (ix2 p k)) (fun k => x1 (ix2 p k)) (fun k q => x2 (ix2 k q))
          (fun q => x3 (ix2 (0 : Fin 1) q)) (fun k q => x4 (ix2 k q)) (fun q => x5 (ix2 (0 : Fin 1) q)) q := by
  rw [k0_pay2_eq, addf_apply, kbranch64_apply, kbranch64_apply, shapeCast_self, shapeCast_self]
  rfl

/-- The divisor payload at `(p, u)` of the column: the larger of the row's norm and ε. -/
theorem k0_pay3_apply (x0 x1 : Vec Ideal S5000x64 .f32) (x2 : Vec Ideal S64x64 .bf16) (x3 : Vec Ideal S1x64 .f32)
    (x4 : Vec Ideal S64x64 .bf16) (x5 : Vec Ideal S1x64 .f32) (p : Fin 5000) (u : Fin 1) :
    Gen.k0_pay3 x0 x1 x2 x3 x4 x5 (ix2 p u)
      = den eps (fun j : Fin 64 => Gen.k0_pay2 x0 x1 x2 x3 x4 x5 (ix2 p j)) := by
  unfold Gen.k0_pay3 den
  generalize Gen.k0_pay2 x0 x1 x2 x3 x4 x5 = P
  simp only []
  rw [maximumf_apply, sqrt_apply, shapeCast_a_a1_apply, broadcast_ofBits_apply]
  refine congrArg (fun z => max (Ideal.sqrt z) (Ideal.ofBits .f32 0x2B8CBCCC#32)) ?_
  exact multiReduction_add_rows_apply (mulf P P) reduces_S5000x64_S5000 (.inl rfl) rfl p

/-- The stored payload at `(p, q)`: the entry over the divisor of its row. -/
theorem k0_pay1_apply (v32 : FVec Ideal S5000x64 .f32) (v38 : FVec Ideal S5000x1 .f32) (p : Fin 5000) (q : Fin 64) :
    Gen.k0_pay1 v32 v38 (ix2 p q) = Ideal.div (v32 (ix2 p q)) (v38 (ix2 p (0 : Fin 1))) := by
  unfold Gen.k0_pay1
  rw [divf_apply, broadcastTo_a1_ab_apply]

/-- The kernel's stored value at `(p, q)`. -/
theorem kernel64_apply (x0 x1 : Vec Ideal S5000x64 .f32) (x2 : Vec Ideal S64x64 .bf16) (x3 : Vec Ideal S1x64 .f32)
    (x4 : Vec Ideal S64x64 .bf16) (x5 : Vec Ideal S1x64 .f32) (p : Fin 5000) (q : Fin 64) :
    Gen.k0_pay1 (Gen.k0_pay2 x0 x1 x2 x3 x4 x5) (Gen.k0_pay3 x0 x1 x2 x3 x4 x5) (ix2 p q)
      = outRow slope eps (fun k => x0 (ix2 p k)) (fun k => x1 (ix2 p k)) (fun k q => x2 (ix2 k q))
          (fun q => x3 (ix2 (0 : Fin 1) q)) (fun k q => x4 (ix2 k q)) (fun q => x5 (ix2 (0 : Fin 1) q)) q := by
  rw [k0_pay1_apply, k0_pay3_apply]
  unfold outRow
  simp only [k0_pay2_apply]

end Cert.Bridge
-- ==== Proof.Bridge64.lean ====
/-
  The stored value of the 64-column layer kernel at local index (p, q) of row block t is the reference's
  layer at global index (5000·t + p, q), over the extended reals.
-/
import proofs.«119050_j61040075210791_1_alg».proof.Proof.Terms
import proofs.«119050_j61040075210791_1_alg».proof.Proof.Gen.KernelIdeal.Skeleton
import proofs.«119050_j61040075210791_1_alg».proof.Proof.BridgeSpec
import Idealize.ShloMosaic.Lib.ValueIdx
import proofs.«119050_j61040075210791_1_alg».proof.Proof.BridgeRef64
import proofs.«119050_j61040075210791_1_alg».proof.Proof.BridgeKer64

namespace Cert.Bridge

open Idealize.ShloMosaic Idealize.ShloMosaic.ValueIdx

theorem layer64_block
    (ego side : Cert.ReferenceIdeal.Terms.C Ideal Cert.ReferenceIdeal.S100000x64 .f32)
    (W1 W2 : Cert.ReferenceIdeal.Terms.C Ideal Cert.ReferenceIdeal.S64x64 .f32)
    (b1 b2 : Cert.ReferenceIdeal.Terms.C Ideal Cert.ReferenceIdeal.S64 .f32) (t : Fin 20)
    (x0 x1 : Vec Ideal Cert.KernelIdeal.S5000x64 .f32) (x2 x4 : Vec Ideal Cert.KernelIdeal.S64x64 .bf16)
    (x3 x5 : Vec Ideal Cert.KernelIdeal.S1x64 .f32)
    (h0 : ∀ (p : Fin 5000) (k : Fin 64), x0 (ix2 p k) = ego (ix2 (row t p) k))
    (h1 : ∀ (p : Fin 5000) (k : Fin 64), x1 (ix2 p k) = side (ix2 (row t p) k))
    (h2 : ∀ (k : Fin 64) (q : Fin 64), x2 (ix2 k q) = W1 (ix2 k q))
    (h3 : ∀ (q : Fin 64), x3 (ix2 (0 : Fin 1) q) = b1 (ix1 q))
    (h4 : ∀ (k : Fin 64) (q : Fin 64), x4 (ix2 k q) = W2 (ix2 k q))
    (h5 : ∀ (q : Fin 64), x5 (ix2 (0 : Fin 1) q) = b2 (ix1 q))
    (p : Fin 5000) (q : Fin 64) :
    Cert.KernelIdeal.Gen.k0_pay1 (F := Ideal) (Cert.KernelIdeal.Gen.k0_pay2 x0 x1 x2 x3 x4 x5)
        (Cert.KernelIdeal.Gen.k0_pay3 x0 x1 x2 x3 x4 x5) (ix2 p q)
      = Cert.ReferenceIdeal.Terms.layer64 (F := Ideal) ego side W1 b1 W2 b2 (ix2 (row t p) q) := by
  rw [kernel64_apply, layer64_apply]
  simp only [h0, h1, h2, h3, h4, h5]

end Cert.Bridge
-- ==== Proof.BridgeRef32.lean ====
/-
  The reference's 32-column layer read at an index (r, q): the row formula of the specification applied to
  row r of the two operands, the weights and the biases.
-/
import proofs.«119050_j61040075210791_1_alg».proof.Proof.Terms
import proofs.«119050_j61040075210791_1_alg».proof.Proof.BridgeLib

namespace Cert.Bridge

open Idealize.ShloMosaic Idealize.ShloMosaic.ValueIdx
open Cert.ReferenceIdeal Cert.ReferenceIdeal.Terms Cert.ReferenceIdeal.Facts₀

/-- The bias laid along every row reads, at `(r, q)`, entry `q`. -/
theorem bias32_apply (b : C Ideal S32 .f32) (r : Fin 100000) (q : Fin 32) : bias32 b (ix2 r q) = b (ix1 q) := by
  unfold bias32
  refine (broadcastInDim_oneRow_apply bcast_S1x32_S100000x32_0_1 _ r q).trans ?_
  exact broadcastInDim_b_1b_apply bcast_S32_S1x32_1 b 0 q

/-- The reference's leaky relu at an index. -/
theorem leaky32_apply (x : C Ideal S100000x32 .f32) (j : S100000x32.Idx) : leaky32 x j = lrelu slope (x j) :=
  host_leaky_apply (x j)

/-- The sum of the two branches at `(r, q)`. -/
theorem pre32_apply (ego side : C Ideal S100000x64 .f32) (W1 : C Ideal S64x32 .f32) (b1 : C Ideal S32 .f32)
    (W2 : C Ideal S64x32 .f32) (b2 : C Ideal S32 .f32) (r : Fin 100000) (q : Fin 32) :
    pre32 ego side W1 b1 W2 b2 (ix2 r q)
      = preRow slope (fun k => ego (ix2 r k)) (fun k => side (ix2 r k)) (fun k q => W1 (ix2 k q)) (fun q => b1 (ix1 q))
          (fun k q => W2 (ix2 k q)) (fun q => b2 (ix1 q)) q := by
  unfold pre32
  simp only [addf_apply, leaky32_apply, bias32_apply]
  unfold preRow branch
  refine congrArg₂ (· + ·) (congrArg (lrelu slope) (congrArg (· + b1 (ix1 q)) ?_))
    (congrArg (lrelu slope) (congrArg (· + b2 (ix1 q)) ?_))
  · exact dotGeneral_mk_kn_apply dot_S100000x64_S64x32_S100000x32_1_0_0_1_n_n_wf none (addf ego side) W1 r q
  · exact dotGeneral_mk_kn_apply dot_S100000x64_S64x32_S100000x32_1_0_0_1_n_n_wf none (mulf ego side) W2 r q

/-- A row's divisor, read at `(r, u)` of the column. -/
theorem denom32_apply (s : C Ideal S100000x32 .f32) (r : Fin 100000) (u : Fin 1) :
    denom32 s (ix2 r u) = den eps (fun j : Fin 32 => s (ix2 r j)) := by
  unfold denom32 den
  rw [maximumf_apply, hostSqrt_apply, broadcastInDim_a_a1_apply, hostReduceAdd_rows_apply _ _ _ _ (by decide),
    broadcastInDim_constant_apply, constant_apply, Ideal.ofBits_zero_f32, zero_add]
  simp only [mulf_apply]
  rfl

/-- The layer at `(r, q)`. -/
theorem layer32_apply (ego side : C Ideal S100000x64 .f32) (W1 : C Ideal S64x32 .f32) (b1 : C Ideal S32 .f32)
    (W2 : C Ideal S64x32 .f32) (b2 : C Ideal S32 .f32) (r : Fin 100000) (q : Fin 32) :
    layer32 ego side W1 b1 W2 b2 (ix2 r q)
      = outRow slope eps (fun k => ego (ix2 r k)) (fun k => side (ix2 r k)) (fun k q => W1 (ix2 k q)) (fun q => b1 (ix1 q))
          (fun k q => W2 (ix2 k q)) (fun q => b2 (ix1 q)) q := by
  unfold layer32 normalize32 outRow
  rw [hostDivf_apply, broadcastInDim_a1_ab_apply, denom32_apply]
  simp only [pre32_apply]

end Cert.Bridge
-- ==== Proof.BridgeKer32.lean ====
/-
  The 32-column layer kernel's three payloads read at an index of the row block: the row formula of the
  specification applied to local row p of the two loaded blocks, the loaded weights and the loaded bias rows.
-/
import proofs.«119050_j61040075210791_1_alg».proof.Proof.Gen.KernelIdeal.Skeleton
import proofs.«119050_j61040075210791_1_alg».proof.Proof.BridgeLib

namespace Cert.Bridge

open Idealize.ShloMosaic Idealize.ShloMosaic.ValueIdx
open Cert.KernelIdeal Cert.KernelIdeal.Facts₀

/-- The linear part of one branch as the kernel computes it: the block `u`, rounded to bf16 (the identity here),
    times the weights into a zero accumulator, plus the bias row laid along every row. -/
noncomputable def klin32 (u : FVec Ideal S5000x64 .f32) (w : FVec Ideal S64x32 .bf16) (b : FVec Ideal S1x32 .f32) :
    FVec Ideal S5000x32 .f32 :=
  addf
    (matmul dot_S5000x64_S64x32_S5000x32_1_0_0_1_n_n none (truncf .bf16 u bitsLt_bf16_f32)
      (shapeCast S64x32 w shapeCasts_S64x32_S64x32) (constant S5000x32 .f32 0x00000000#32))
    (broadcastTo S5000x32 (shapeCast S1x32 b shapeCasts_S1x32_S1x32) broadcasts_S1x32_S5000x32)

/-- One branch as the kernel computes it: the leaky relu, written with a strict comparison, of the linear part. -/
noncomputable def kbranch32 (u : FVec Ideal S5000x64 .f32) (w : FVec Ideal S64x32 .bf16) (b : FVec Ideal S1x32 .f32) :
    FVec Ideal S5000x32 .f32 :=
  select (cmpf .ogt (klin32 u w b) (broadcast S5000x32 (Scalar.ofBits .f32 0x00000000#32))) (klin32 u w b)
    (mulf (broadcast S5000x32 (Scalar.ofBits .f32 0x3C23D70A#32)) (klin32 u w b))

/-- The kernel's pre-normalisation payload is the sum of its two branches. -/
theorem k1_pay2_eq (x0 x1 : Vec Ideal S5000x64 .f32) (x2 : Vec Ideal S64x32 .bf16) (x3 : Vec Ideal S1x32 .f32)
    (x4 : Vec Ideal S64x32 .bf16) (x5 : Vec Ideal S1x32 .f32) :
    Gen.k1_pay2 x0 x1 x2 x3 x4 x5
      = addf
          (kbranch32 (addf (shapeCast S5000x64 x0 shapeCasts_S5000x64_S5000x64) (shapeCast S5000x64 x1 shapeCasts_S5000x64_S5000x64)) x2 x3)
          (kbranch32 (mulf (shapeCast S5000x64 x0 shapeCasts_S5000x64_S5000x64) (shapeCast S5000x64 x1 shapeCasts_S5000x64_S5000x64)) x4 x5) :=
  rfl

/-- The linear part at `(p, q)`. -/
theorem klin32_apply (u : FVec Ideal S5000x64 .f32) (w : FVec Ideal S64x32 .bf16) (b : FVec Ideal S1x32 .f32)
    (p : Fin 5000) (q : Fin 32) :
    klin32 u w b (ix2 p q) = (∑ k : Fin 64, u (ix2 p k) * w (ix2 k q)) + b (ix2 (0 : Fin 1) q) := by
  unfold klin32
  rw [addf_apply, shapeCast_self, shapeCast_self]
  refine congrArg₂ (· + ·) ?_ ?_
  · exact matmul_zero_mk_kn_apply (φ₁ := .bf16) (φ₂ := .bf16) dot_S5000x64_S64x32_S5000x32_1_0_0_1_n_n_wf none
      (truncf .bf16 u bitsLt_bf16_f32) w p q
  · exact broadcastTo_1b_ab_apply b broadcasts_S1x32_S5000x32 p q

/-- One branch at `(p, q)`. -/
theorem kbranch32_apply (u : FVec Ideal S5000x64 .f32) (w : FVec Ideal S64x32 .bf16) (b : FVec Ideal S1x32 .f32)
    (p : Fin 5000) (q : Fin 32) :
    kbranch32 u w b (ix2 p q)
      = branch slope (fun k => u (ix2 p k)) (fun k q => w (ix2 k q)) (fun q => b (ix2 (0 : Fin 1) q)) q :=
  (kernel_leaky_apply (klin32 u w b (ix2 p q))).trans (congrArg (lrelu slope) (klin32_apply u w b p q))

/-- The pre-normalisation payload at `(p, q)`. -/
theorem k1_pay2_apply (x0 x1 : Vec Ideal S5000x64 .f32) (x2 : Vec Ideal S64x32 .bf16) (x3 : Vec Ideal S1x32 .f32)
    (x4 : Vec Ideal S64x32 .bf16) (x5 : Vec Ideal S1x32 .f32) (p : Fin 5000) (q : Fin 32) :
    Gen.k1_pay2 x0 x1 x2 x3 x4 x5 (ix2 p q)
      = preRow slope (fun k => x0 (ix2 p k)) (fun k => x1 (ix2 p k)) (fun k q => x2 (ix2 k q))
          (fun q => x3 (ix2 (0 : Fin 1) q)) (fun k q => x4 (ix2 k q)) (fun q => x5 (ix2 (0 : Fin 1) q)) q := by
  rw [k1_pay2_eq, addf_apply, kbranch32_apply, kbranch32_apply, shapeCast_self, shapeCast_self]
  rfl

/-- The divisor payload at `(p, u)` of the column: the larger of the row's norm and ε. -/
theorem k1_pay3_apply (x0 x1 : Vec Ideal S5000x64 .f32) (x2 : Vec Ideal S64x32 .bf16) (x3 : Vec Ideal S1x32 .f32)
    (x4 : Vec Ideal S64x32 .bf16) (x5 : Vec Ideal S1x32 .f32) (p : Fin 5000) (u : Fin 1) :
    Gen.k1_pay3 x0 x1 x2 x3 x4 x5 (ix2 p u)
      = den eps (fun j : Fin 32 => Gen.k1_pay2 x0 x1 x2 x3 x4 x5 (ix2 p j)) := by
  unfold Gen.k1_pay3 den
  generalize Gen.k1_pay2 x0 x1 x2 x3 x4 x5 = P
  simp only []
  rw [maximumf_apply, sqrt_apply, shapeCast_a_a1_apply, broadcast_ofBits_apply]
  refine congrArg (fun z => max (Ideal.sqrt z) (Ideal.ofBits .f32 0x2B8CBCCC#32)) ?_
  exact multiReduction_add_rows_apply (mulf P P) reduces_S5000x32_S5000 (.inl rfl) rfl p

/-- The stored payload at `(p, q)`: the entry over the divisor of its row. -/
theorem k1_pay1_apply (v32 : FVec Ideal S5000x32 .f32) (v38 : FVec Ideal S5000x1 .f32) (p : Fin 5000) (q : Fin 32) :
    Gen.k1_pay1 v32 v38 (ix2 p q) = Ideal.div (v32 (ix2 p q)) (v38 (ix2 p (0 : Fin 1))) := by
  unfold Gen.k1_pay1
  rw [divf_apply, broadcastTo_a1_ab_apply]

/-- The kernel's stored value at `(p, q)`. -/
theorem kernel32_apply (x0 x1 : Vec Ideal S5000x64 .f32) (x2 : Vec Ideal S64x32 .bf16) (x3 : Vec Ideal S1x32 .f32)
    (x4 : Vec Ideal S64x32 .bf16) (x5 : Vec Ideal S1x32 .f32) (p : Fin 5000) (q : Fin 32) :
    Gen.k1_pay1 (Gen.k1_pay2 x0 x1 x2 x3 x4 x5) (Gen.k1_pay3 x0 x1 x2 x3 x4 x5) (ix2 p q)
      = outRow slope eps (fun k => x0 (ix2 p k)) (fun k => x1 (ix2 p k)) (fun k q => x2 (ix2 k q))
          (fun q => x3 (ix2 (0 : Fin 1) q)) (fun k q => x4 (ix2 k q)) (fun q => x5 (ix2 (0 : Fin 1) q)) q := by
  rw [k1_pay1_apply, k1_pay3_apply]
  unfold outRow
  simp only [k1_pay2_apply]

end Cert.Bridge
-- ==== Proof.Bridge32.lean ====
/-
  The stored value of the 32-column layer kernel at local index (p, q) of row block t is the reference's
  layer at global index (5000·t + p, q), over the extended reals.
-/
import proofs.«119050_j61040075210791_1_alg».proof.Proof.Terms
import proofs.«119050_j61040075210791_1_alg».proof.Proof.Gen.KernelIdeal.Skeleton
import proofs.«119050_j61040075210791_1_alg».proof.Proof.BridgeSpec
import Idealize.ShloMosaic.Lib.ValueIdx
import proofs.«119050_j61040075210791_1_alg».proof.Proof.BridgeRef32
import proofs.«119050_j61040075210791_1_alg».proof.Proof.BridgeKer32

namespace Cert.Bridge

open Idealize.ShloMosaic Idealize.ShloMosaic.ValueIdx

theorem layer32_block
    (ego side : Cert.ReferenceIdeal.Terms.C Ideal Cert.ReferenceIdeal.S100000x64 .f32)
    (W1 W2 : Cert.ReferenceIdeal.Terms.C Ideal Cert.ReferenceIdeal.S64x32 .f32)
    (b1 b2 : Cert.ReferenceIdeal.Terms.C Ideal Cert.ReferenceIdeal.S32 .f32) (t : Fin 20)
    (x0 x1 : Vec Ideal Cert.KernelIdeal.S5000x64 .f32) (x2 x4 : Vec Ideal Cert.KernelIdeal.S64x32 .bf16)
    (x3 x5 : Vec Ideal Cert.KernelIdeal.S1x32 .f32)
    (h0 : ∀ (p : Fin 5000) (k : Fin 64), x0 (ix2 p k) = ego (ix2 (row t p) k))
    (h1 : ∀ (p : Fin 5000) (k : Fin 64), x1 (ix2 p k) = side (ix2 (row t p) k))
    (h2 : ∀ (k : Fin 64) (q : Fin 32), x2 (ix2 k q) = W1 (ix2 k q))
    (h3 : ∀ (q : Fin 32), x3 (ix2 (0 : Fin 1) q) = b1 (ix1 q))
    (h4 : ∀ (k : Fin 64) (q : Fin 32), x4 (ix2 k q) = W2 (ix2 k q))
    (h5 : ∀ (q : Fin 32), x5 (ix2 (0 : Fin 1) q) = b2 (ix1 q))
    (p : Fin 5000) (q : Fin 32) :
    Cert.KernelIdeal.Gen.k1_pay1 (F := Ideal) (Cert.KernelIdeal.Gen.k1_pay2 x0 x1 x2 x3 x4 x5)
        (Cert.KernelIdeal.Gen.k1_pay3 x0 x1 x2 x3 x4 x5) (ix2 p q)
      = Cert.ReferenceIdeal.Terms.layer32 (F := Ideal) ego side W1 b1 W2 b2 (ix2 (row t p) q) := by
  rw [kernel32_apply, layer32_apply]
  simp only [h0, h1, h2, h3, h4, h5]

end Cert.Bridge
-- ==== Proof.KValue.lean ====
/-
  The kernel program's result as a function of its arguments, at the exact instance (every float an extended real).
  Three parts. (1) What each stretch of host operations leaves in the buffers the pallas_calls and the final
  concatenation read, as the reference's named terms of the stretch's inputs: the stacked tables, the sparse product,
  the weights (their conversion to bf16 is the identity here) and the biases (reshaped to one row). (2) Each
  pallas_call's output array after its twenty grid points: point `t` writes back rows 5000·t … 5000·t+4999, each
  entry the body's value of the six staged blocks, which the block-by-block layer lemma identifies with the
  reference's layer at the global index; the twenty row blocks cover the array, so the array is the layer. (3) The
  result buffer read back through the boundaries to the arguments.
-/
import proofs.«119050_j61040075210791_1_alg».proof.Proof.KRun
import proofs.«119050_j61040075210791_1_alg».proof.Proof.Bridge64
import proofs.«119050_j61040075210791_1_alg».proof.Proof.Bridge32
import proofs.«119050_j61040075210791_1_alg».proof.Proof.Terms
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KV

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.KF
open Cert.ReferenceIdeal.Terms

theorem hz2 : (![0, 0] : Fin 2 → Nat) = fun _ => 0 := funext fun a => by fin_cases a <;> rfl

/-! ## What the host stretches leave -/

section Host
variable (W : Valuation τ sig (Elt Ideal))

/-- The first stretch stacks the two tables, -/
theorem ops0_v0 : StableHlo.after (hostOps0 (F := Ideal)) W (Proc.devRef .tc main_v0)
    = ego0 (F := Ideal) (W (Proc.devRef .tc main_arg0)) (W (Proc.devRef .tc main_arg1)) := by
  after_results; rfl
set_option maxHeartbeats 4000000 in
/-- forms their sparse product, -/
theorem ops0_v13 : StableHlo.after (hostOps0 (F := Ideal)) W (Proc.devRef .tc main_v13)
    = spmm (F := Ideal) (ego0 (F := Ideal) (W (Proc.devRef .tc main_arg0)) (W (Proc.devRef .tc main_arg1))) (W (Proc.devRef .tc main_arg2)) (W (Proc.devRef .tc main_arg11)) (W (Proc.devRef .tc main_arg12)) := by
  after_results_simp; rfl
/-- converts the two weight matrices (the identity on extended reals), -/
theorem ops0_v14 (k q : Fin 64) : (StableHlo.after (hostOps0 (F := Ideal)) W (Proc.devRef .tc main_v14) : S64x64.Idx → EReal) (ix2 k q)
    = ((W (Proc.devRef .tc main_arg3)) : S64x64.Idx → EReal) (ix2 k q) := by
  have e : StableHlo.after (hostOps0 (F := Ideal)) W (Proc.devRef .tc main_v14) = (truncf .bf16 ((W (Proc.devRef .tc main_arg3)) : FVec Ideal S64x64 .f32) bitsLt_bf16_f32 : FVec Ideal S64x64 .bf16) := by
    after_results
  rw [e]; rfl
theorem ops0_v15 (k q : Fin 64) : (StableHlo.after (hostOps0 (F := Ideal)) W (Proc.devRef .tc main_v15) : S64x64.Idx → EReal) (ix2 k q)
    = ((W (Proc.devRef .tc main_arg5)) : S64x64.Idx → EReal) (ix2 k q) := by
  have e : StableHlo.after (hostOps0 (F := Ideal)) W (Proc.devRef .tc main_v15) = (truncf .bf16 ((W (Proc.devRef .tc main_arg5)) : FVec Ideal S64x64 .f32) bitsLt_bf16_f32 : FVec Ideal S64x64 .bf16) := by
    after_results
  rw [e]; rfl
/-- and lays each bias out as one row. -/
theorem ops0_v16 (q : Fin 64) : (StableHlo.after (hostOps0 (F := Ideal)) W (Proc.devRef .tc main_v16) : S1x64.Idx → EReal) (ix2 (0 : Fin 1) q)
    = ((W (Proc.devRef .tc main_arg4)) : S64.Idx → EReal) (ix1 q) := by
  have e : StableHlo.after (hostOps0 (F := Ideal)) W (Proc.devRef .tc main_v16) = fun i => shapeCast S1x64 (W (Proc.devRef .tc main_arg4)) shapeCasts_S64_S1x64 i := by
    after_results; rfl
  rw [e]; exact shapeCast_a_1a_apply _ _ 0 q
theorem ops0_v17 (q : Fin 64) : (StableHlo.after (hostOps0 (F := Ideal)) W (Proc.devRef .tc main_v17) : S1x64.Idx → EReal) (ix2 (0 : Fin 1) q)
    = ((W (Proc.devRef .tc main_arg6)) : S64.Idx → EReal) (ix1 q) := by
  have e : StableHlo.after (hostOps0 (F := Ideal)) W (Proc.devRef .tc main_v17) = fun i => shapeCast S1x64 (W (Proc.devRef .tc main_arg6)) shapeCasts_S64_S1x64 i := by
    after_results; rfl
  rw [e]; exact shapeCast_a_1a_apply _ _ 0 q

set_option maxHeartbeats 4000000 in
/-- The second stretch forms the sparse product of the first layer's embedding, -/
theorem ops1_v31 : StableHlo.after (hostOps1 (F := Ideal)) W (Proc.devRef .tc main_v31)
    = spmm (F := Ideal) (W (Proc.devRef .tc main_v18)) (W (Proc.devRef .tc main_arg2)) (W (Proc.devRef .tc main_arg11)) (W (Proc.devRef .tc main_arg12)) := by
  after_results_simp; rfl
/-- converts the second layer's weights and lays out its biases. -/
theorem ops1_v32 (k : Fin 64) (q : Fin 32) : (StableHlo.after (hostOps1 (F := Ideal)) W (Proc.devRef .tc main_v32) : S64x32.Idx → EReal) (ix2 k q)
    = ((W (Proc.devRef .tc main_arg7)) : S64x32.Idx → EReal) (ix2 k q) := by
  have e : StableHlo.after (hostOps1 (F := Ideal)) W (Proc.devRef .tc main_v32) = (truncf .bf16 ((W (Proc.devRef .tc main_arg7)) : FVec Ideal S64x32 .f32) bitsLt_bf16_f32 : FVec Ideal S64x32 .bf16) := by
    after_results
  rw [e]; rfl
theorem ops1_v33 (k : Fin 64) (q : Fin 32) : (StableHlo.after (hostOps1 (F := Ideal)) W (Proc.devRef .tc main_v33) : S64x32.Idx → EReal) (ix2 k q)
    = ((W (Proc.devRef .tc main_arg9)) : S64x32.Idx → EReal) (ix2 k q) := by
  have e : StableHlo.after (hostOps1 (F := Ideal)) W (Proc.devRef .tc main_v33) = (truncf .bf16 ((W (Proc.devRef .tc main_arg9)) : FVec Ideal S64x32 .f32) bitsLt_bf16_f32 : FVec Ideal S64x32 .bf16) := by
    after_results
  rw [e]; rfl
theorem ops1_v34 (q : Fin 32) : (StableHlo.after (hostOps1 (F := Ideal)) W (Proc.devRef .tc main_v34) : S1x32.Idx → EReal) (ix2 (0 : Fin 1) q)
    = ((W (Proc.devRef .tc main_arg8)) : S32.Idx → EReal) (ix1 q) := by
  have e : StableHlo.after (hostOps1 (F := Ideal)) W (Proc.devRef .tc main_v34) = fun i => shapeCast S1x32 (W (Proc.devRef .tc main_arg8)) shapeCasts_S32_S1x32 i := by
    after_results; rfl
  rw [e]; exact shapeCast_a_1a_apply _ _ 0 q
theorem ops1_v35 (q : Fin 32) : (StableHlo.after (hostOps1 (F := Ideal)) W (Proc.devRef .tc main_v35) : S1x32.Idx → EReal) (ix2 (0 : Fin 1) q)
    = ((W (Proc.devRef .tc main_arg10)) : S32.Idx → EReal) (ix1 q) := by
  have e : StableHlo.after (hostOps1 (F := Ideal)) W (Proc.devRef .tc main_v35) = fun i => shapeCast S1x32 (W (Proc.devRef .tc main_arg10)) shapeCasts_S32_S1x32 i := by
    after_results; rfl
  rw [e]; exact shapeCast_a_1a_apply _ _ 0 q

/-- The last operation puts the three embeddings side by side. -/
theorem ops2_v37 : StableHlo.after (hostOps2 (F := Ideal)) W (Proc.devRef .tc main_v37)
    = cat3 (F := Ideal) (W (Proc.devRef .tc main_v0)) (W (Proc.devRef .tc main_v18)) (W (Proc.devRef .tc main_v36)) := by
  after_results; rfl

end Host

/-! ## The first pallas_call's output array -/

section Final0
variable (V : (c : Dev nD) → (b : Ref sig .tc) → Buf (Elt Ideal) ((c : Thread nD τ).loc b)) (c : Dev nD)

/-- The printed index maps, decided over the grid: the two row-blocked operands and the result move with the point;
    the weights and biases stay at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A grid point as a number below twenty. -/
def pt0 (t : Fin cfg0.N) : Fin 20 := ⟨t.val, Nat.lt_of_lt_of_eq t.isLt N_0⟩

/-- Entry (p, k) of a row-blocked window's block at point t sits at global row 5000·t + p. -/
theorem emb0_0 (t : Fin cfg0.N) (p : Fin 5000) (k : Fin 64) :
    ((cfg0.win 0).blk t).view.emb (ix2 p k) = ix2 (Cert.Bridge.row (pt0 t) p) k := by
  obtain ⟨e0, e1, -⟩ := idx0 t
  funext a; apply Fin.ext
  match a with
  | ⟨0, _⟩ => show win0_0.index t (0 : Fin 2) * 5000 + 1 * p.val = 5000 * t.val + p.val; omega
  | ⟨1, _⟩ => show win0_0.index t (1 : Fin 2) * 64 + 1 * k.val = k.val; omega
theorem emb0_1 (t : Fin cfg0.N) (p : Fin 5000) (k : Fin 64) :
    ((cfg0.win 1).blk t).view.emb (ix2 p k) = ix2 (Cert.Bridge.row (pt0 t) p) k := by
  obtain ⟨-, -, e0, e1, -⟩ := idx0 t
  funext a; apply Fin.ext
  match a with
  | ⟨0, _⟩ => show win0_1.index t (0 : Fin 2) * 5000 + 1 * p.val = 5000 * t.val + p.val; omega
  | ⟨1, _⟩ => show win0_1.index t (1 : Fin 2) * 64 + 1 * k.val = k.val; omega
theorem emb0_6 (t : Fin cfg0.N) (p : Fin 5000) (q : Fin 64) :
    ((cfg0.win 6).blk t).view.emb (ix2 p q) = ix2 (Cert.Bridge.row (pt0 t) p) q := by
  obtain ⟨-, -, -, -, -, -, -, -, -, -, -, -, e0, e1⟩ := idx0 t
  funext a; apply Fin.ext
  match a with
  | ⟨0, _⟩ => show win0_6.index t (0 : Fin 2) * 5000 + 1 * p.val = 5000 * t.val + p.val; omega
  | ⟨1, _⟩ => show win0_6.index t (1 : Fin 2) * 64 + 1 * q.val = q.val; omega
/-- The weights' and biases' blocks are the whole arrays. -/
theorem emb0_2 (t : Fin cfg0.N) (k : Fin 64) (q : Fin 64) : ((cfg0.win 2).blk t).view.emb (ix2 k q) = ix2 k q := by
  obtain ⟨-, -, -, -, e0, e1, -⟩ := idx0 t
  funext a; apply Fin.ext
  match a with
  | ⟨0, _⟩ => show win0_2.index t (0 : Fin 2) * 64 + 1 * k.val = k.val; omega
  | ⟨1, _⟩ => show win0_2.index t (1 : Fin 2) * 64 + 1 * q.val = q.val; omega
theorem emb0_4 (t : Fin cfg0.N) (k : Fin 64) (q : Fin 64) : ((cfg0.win 4).blk t).view.emb (ix2 k q) = ix2 k q := by
  obtain ⟨-, -, -, -, -, -, -, -, e0, e1, -⟩ := idx0 t
  funext a; apply Fin.ext
  match a with
  | ⟨0, _⟩ => show win0_4.index t (0 : Fin 2) * 64 + 1 * k.val = k.val; omega
  | ⟨1, _⟩ => show win0_4.index t (1 : Fin 2) * 64 + 1 * q.val = q.val; omega
theorem emb0_3 (t : Fin cfg0.N) (q : Fin 64) : ((cfg0.win 3).blk t).view.emb (ix2 (0 : Fin 1) q) = ix2 (0 : Fin 1) q := by
  obtain ⟨-, -, -, -, -, -, e0, e1, -⟩ := idx0 t
  funext a; apply Fin.ext
  match a with
  | ⟨0, _⟩ => show win0_3.index t (0 : Fin 2) * 1 + 1 * 0 = 0; omega
  | ⟨1, _⟩ => show win0_3.index t (1 : Fin 2) * 64 + 1 * q.val = q.val; omega
theorem emb0_5 (t : Fin cfg0.N) (q : Fin 64) : ((cfg0.win 5).blk t).view.emb (ix2 (0 : Fin 1) q) = ix2 (0 : Fin 1) q := by
  obtain ⟨-, -, -, -, -, -, -, -, -, -, e0, e1, -⟩ := idx0 t
  funext a; apply Fin.ext
  match a with
  | ⟨0, _⟩ => show win0_5.index t (0 : Fin 2) * 1 + 1 * 0 = 0; omega
  | ⟨1, _⟩ => show win0_5.index t (1 : Fin 2) * 64 + 1 * q.val = q.val; omega

variable (W1 W2 : C Ideal Cert.ReferenceIdeal.S64x64 .f32) (b1 b2 : C Ideal Cert.ReferenceIdeal.S64 .f32)

/-- WHAT POINT `t` WRITES BACK is block `t` of the reference's layer of the arrays the pallas_call is entered with —
    given that the staged weight arrays hold `W1`, `W2` and the staged bias rows hold `b1`, `b2`. -/
theorem flushed0_eq
    (h2 : ∀ (k : Fin 64) (q : Fin 64), (V c (Pipeline.arrRef spec0 2) : S64x64.Idx → EReal) (ix2 k q) = W1 (ix2 k q))
    (h3 : ∀ (q : Fin 64), (V c (Pipeline.arrRef spec0 3) : S1x64.Idx → EReal) (ix2 (0 : Fin 1) q) = b1 (ix1 q))
    (h4 : ∀ (k : Fin 64) (q : Fin 64), (V c (Pipeline.arrRef spec0 4) : S64x64.Idx → EReal) (ix2 k q) = W2 (ix2 k q))
    (h5 : ∀ (q : Fin 64), (V c (Pipeline.arrRef spec0 5) : S1x64.Idx → EReal) (ix2 (0 : Fin 1) q) = b2 (ix1 q))
    (t : Fin cfg0.N) :
    (dat0 V c).flushed 6 t = ((cfg0.win 6).blk t).view.read (Elt Ideal)
      (layer64 (F := Ideal) (V c (Pipeline.arrRef spec0 0)) (V c (Pipeline.arrRef spec0 1)) W1 b1 W2 b2) := by
  show (cfg0.win 6).cut (grid0.coords t) ((dat0 V c).after 6 t) = _
  rw [after0_6]
  unfold out0_6
  rw [View.canon_unit_zero hz2]
  unfold val0
  simp only [View.ld_unit_zero (S := S5000x64) hz2, View.ld_unit_zero (S := S64x64) hz2, View.ld_unit_zero (S := S1x64) hz2]
  funext j
  obtain ⟨p, q, rfl⟩ : ∃ (p : Fin 5000) (q : Fin 64), j = ix2 p q := ⟨j 0, j 1, eq_ix2 j⟩
  refine (Cert.Bridge.layer64_block (V c (Pipeline.arrRef spec0 0)) (V c (Pipeline.arrRef spec0 1)) W1 W2 b1 b2 (pt0 t)
    (iblk0 V c 0 t) (iblk0 V c 1 t) (iblk0 V c 2 t) (iblk0 V c 4 t) (iblk0 V c 3 t) (iblk0 V c 5 t) ?_ ?_ ?_ ?_ ?_ ?_ p q).trans ?_
  · intro p k
    show V c (Pipeline.arrRef spec0 0) (((cfg0.win 0).blk t).view.emb (ix2 p k)) = _
    rw [emb0_0]
  · intro p k
    show V c (Pipeline.arrRef spec0 1) (((cfg0.win 1).blk t).view.emb (ix2 p k)) = _
    rw [emb0_1]
  · intro k q
    show V c (Pipeline.arrRef spec0 2) (((cfg0.win 2).blk t).view.emb (ix2 k q)) = _
    rw [emb0_2]; exact h2 k q
  · intro q
    show V c (Pipeline.arrRef spec0 3) (((cfg0.win 3).blk t).view.emb (ix2 (0 : Fin 1) q)) = _
    rw [emb0_3]; exact h3 q
  · intro k q
    show V c (Pipeline.arrRef spec0 4) (((cfg0.win 4).blk t).view.emb (ix2 k q)) = _
    rw [emb0_4]; exact h4 k q
  · intro q
    show V c (Pipeline.arrRef spec0 5) (((cfg0.win 5).blk t).view.emb (ix2 (0 : Fin 1) q)) = _
    rw [emb0_5]; exact h5 q
  · show _ = layer64 (F := Ideal) (V c (Pipeline.arrRef spec0 0)) (V c (Pipeline.arrRef spec0 1)) W1 b1 W2 b2 (((cfg0.win 6).blk t).view.emb (ix2 p q))
    rw [emb0_6]

/-- An index of the output array is in point `t`'s block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v18).slice (win0_6.rect t)).set ↔ _
  rw [View.set_slice_whole, Rect.mem_set_unit]
  exact Iff.rfl

/-- The twenty row blocks cover the output array: row r is in the block of point r / 5000. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  have ht : (i 0).val / 5000 < cfg0.N := by rw [hN]; omega
  refine ⟨⟨(i 0).val / 5000, ht⟩, flush0_6 _, ?_⟩
  rw [mem_blk0]
  obtain ⟨-, -, -, -, -, -, -, -, -, -, -, -, e0, e1⟩ := idx0 ⟨(i 0).val / 5000, ht⟩
  intro a
  match a with
  | ⟨0, _⟩ => show win0_6.index ⟨(i 0).val / 5000, ht⟩ (0 : Fin 2) * 5000 ≤ (i 0).val ∧ (i 0).val < win0_6.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win0_6.index ⟨(i 0).val / 5000, ht⟩ (1 : Fin 2) * 64 ≤ (i 1).val ∧ (i 1).val < win0_6.index ⟨(i 0).val / 5000, ht⟩ (1 : Fin 2) * 64 + 64; rw [e1]; omega

/-- THE OUTPUT ARRAY after the twenty points is the reference's layer of the entry arrays. -/
theorem final0
    (h2 : ∀ (k : Fin 64) (q : Fin 64), (V c (Pipeline.arrRef spec0 2) : S64x64.Idx → EReal) (ix2 k q) = W1 (ix2 k q))
    (h3 : ∀ (q : Fin 64), (V c (Pipeline.arrRef spec0 3) : S1x64.Idx → EReal) (ix2 (0 : Fin 1) q) = b1 (ix1 q))
    (h4 : ∀ (k : Fin 64) (q : Fin 64), (V c (Pipeline.arrRef spec0 4) : S64x64.Idx → EReal) (ix2 k q) = W2 (ix2 k q))
    (h5 : ∀ (q : Fin 64), (V c (Pipeline.arrRef spec0 5) : S1x64.Idx → EReal) (ix2 (0 : Fin 1) q) = b2 (ix1 q)) :
    (dat0 V c).arrAt 6 cfg0.N
      = layer64 (F := Ideal) (V c (Pipeline.arrRef spec0 0)) (V c (Pipeline.arrRef spec0 1)) W1 b1 W2 b2 :=
  (dat0 V c).arrAt_eq_of_cover 6 _ (fun t _ => flushed0_eq V c W1 W2 b1 b2 h2 h3 h4 h5 t) (cover0)

end Final0

/-! ## The second pallas_call's output array -/

section Final1
variable (V : (c : Dev nD) → (b : Ref sig .tc) → Buf (Elt Ideal) ((c : Thread nD τ).loc b)) (c : Dev nD)

/-- The printed index maps, decided over the grid: the two row-blocked operands and the result move with the point;
    the weights and biases stay at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A grid point as a number below twenty. -/
def pt1 (t : Fin cfg1.N) : Fin 20 := ⟨t.val, Nat.lt_of_lt_of_eq t.isLt N_1⟩

/-- Entry (p, k) of a row-blocked window's block at point t sits at global row 5000·t + p. -/
theorem emb1_0 (t : Fin cfg1.N) (p : Fin 5000) (k : Fin 64) :
    ((cfg1.win 0).blk t).view.emb (ix2 p k) = ix2 (Cert.Bridge.row (pt1 t) p) k := by
  obtain ⟨e0, e1, -⟩ := idx1 t
  funext a; apply Fin.ext
  match a with
  | ⟨0, _⟩ => show win1_0.index t (0 : Fin 2) * 5000 + 1 * p.val = 5000 * t.val + p.val; omega
  | ⟨1, _⟩ => show win1_0.index t (1 : Fin 2) * 64 + 1 * k.val = k.val; omega
theorem emb1_1 (t : Fin cfg1.N) (p : Fin 5000) (k : Fin 64) :
    ((cfg1.win 1).blk t).view.emb (ix2 p k) = ix2 (Cert.Bridge.row (pt1 t) p) k := by
  obtain ⟨-, -, e0, e1, -⟩ := idx1 t
  funext a; apply Fin.ext
  match a with
  | ⟨0, _⟩ => show win1_1.index t (0 : Fin 2) * 5000 + 1 * p.val = 5000 * t.val + p.val; omega
  | ⟨1, _⟩ => show win1_1.index t (1 : Fin 2) * 64 + 1 * k.val = k.val; omega
theorem emb1_6 (t : Fin cfg1.N) (p : Fin 5000) (q : Fin 32) :
    ((cfg1.win 6).blk t).view.emb (ix2 p q) = ix2 (Cert.Bridge.row (pt1 t) p) q := by
  obtain ⟨-, -, -, -, -, -, -, -, -, -, -, -, e0, e1⟩ := idx1 t
  funext a; apply Fin.ext
  match a with
  | ⟨0, _⟩ => show win1_6.index t (0 : Fin 2) * 5000 + 1 * p.val = 5000 * t.val + p.val; omega
  | ⟨1, _⟩ => show win1_6.index t (1 : Fin 2) * 32 + 1 * q.val = q.val; omega
/-- The weights' and biases' blocks are the whole arrays. -/
theorem emb1_2 (t : Fin cfg1.N) (k : Fin 64) (q : Fin 32) : ((cfg1.win 2).blk t).view.emb (ix2 k q) = ix2 k q := by
  obtain ⟨-, -, -, -, e0, e1, -⟩ := idx1 t
  funext a; apply Fin.ext
  match a with
  | ⟨0, _⟩ => show win1_2.index t (0 : Fin 2) * 64 + 1 * k.val = k.val; omega
  | ⟨1, _⟩ => show win1_2.index t (1 : Fin 2) * 32 + 1 * q.val = q.val; omega
theorem emb1_4 (t : Fin cfg1.N) (k : Fin 64) (q : Fin 32) : ((cfg1.win 4).blk t).view.emb (ix2 k q) = ix2 k q := by
  obtain ⟨-, -, -, -, -, -, -, -, e0, e1, -⟩ := idx1 t
  funext a; apply Fin.ext
  match a with
  | ⟨0, _⟩ => show win1_4.index t (0 : Fin 2) * 64 + 1 * k.val = k.val; omega
  | ⟨1, _⟩ => show win1_4.index t (1 : Fin 2) * 32 + 1 * q.val = q.val; omega
theorem emb1_3 (t : Fin cfg1.N) (q : Fin 32) : ((cfg1.win 3).blk t).view.emb (ix2 (0 : Fin 1) q) = ix2 (0 : Fin 1) q := by
  obtain ⟨-, -, -, -, -, -, e0, e1, -⟩ := idx1 t
  funext a; apply Fin.ext
  match a with
  | ⟨0, _⟩ => show win1_3.index t (0 : Fin 2) * 1 + 1 * 0 = 0; omega
  | ⟨1, _⟩ => show win1_3.index t (1 : Fin 2) * 32 + 1 * q.val = q.val; omega
theorem emb1_5 (t : Fin cfg1.N) (q : Fin 32) : ((cfg1.win 5).blk t).view.emb (ix2 (0 : Fin 1) q) = ix2 (0 : Fin 1) q := by
  obtain ⟨-, -, -, -, -, -, -, -, -, -, e0, e1, -⟩ := idx1 t
  funext a; apply Fin.ext
  match a with
  | ⟨0, _⟩ => show win1_5.index t (0 : Fin 2) * 1 + 1 * 0 = 0; omega
  | ⟨1, _⟩ => show win1_5.index t (1 : Fin 2) * 32 + 1 * q.val = q.val; omega

variable (W1 W2 : C Ideal Cert.ReferenceIdeal.S64x32 .f32) (b1 b2 : C Ideal Cert.ReferenceIdeal.S32 .f32)

/-- WHAT POINT `t` WRITES BACK is block `t` of the reference's layer of the arrays the pallas_call is entered with —
    given that the staged weight arrays hold `W1`, `W2` and the staged bias rows hold `b1`, `b2`. -/
theorem flushed1_eq
    (h2 : ∀ (k : Fin 64) (q : Fin 32), (V c (Pipeline.arrRef spec1 2) : S64x32.Idx → EReal) (ix2 k q) = W1 (ix2 k q))
    (h3 : ∀ (q : Fin 32), (V c (Pipeline.arrRef spec1 3) : S1x32.Idx → EReal) (ix2 (0 : Fin 1) q) = b1 (ix1 q))
    (h4 : ∀ (k : Fin 64) (q : Fin 32), (V c (Pipeline.arrRef spec1 4) : S64x32.Idx → EReal) (ix2 k q) = W2 (ix2 k q))
    (h5 : ∀ (q : Fin 32), (V c (Pipeline.arrRef spec1 5) : S1x32.Idx → EReal) (ix2 (0 : Fin 1) q) = b2 (ix1 q))
    (t : Fin cfg1.N) :
    (dat1 V c).flushed 6 t = ((cfg1.win 6).blk t).view.read (Elt Ideal)
      (layer32 (F := Ideal) (V c (Pipeline.arrRef spec1 0)) (V c (Pipeline.arrRef spec1 1)) W1 b1 W2 b2) := by
  show (cfg1.win 6).cut (grid1.coords t) ((dat1 V c).after 6 t) = _
  rw [after1_6]
  unfold out1_6
  rw [View.canon_unit_zero hz2]
  unfold val1
  simp only [View.ld_unit_zero (S := S5000x64) hz2, View.ld_unit_zero (S := S64x32) hz2, View.ld_unit_zero (S := S1x32) hz2]
  funext j
  obtain ⟨p, q, rfl⟩ : ∃ (p : Fin 5000) (q : Fin 32), j = ix2 p q := ⟨j 0, j 1, eq_ix2 j⟩
  refine (Cert.Bridge.layer32_block (V c (Pipeline.arrRef spec1 0)) (V c (Pipeline.arrRef spec1 1)) W1 W2 b1 b2 (pt1 t)
    (iblk1 V c 0 t) (iblk1 V c 1 t) (iblk1 V c 2 t) (iblk1 V c 4 t) (iblk1 V c 3 t) (iblk1 V c 5 t) ?_ ?_ ?_ ?_ ?_ ?_ p q).trans ?_
  · intro p k
    show V c (Pipeline.arrRef spec1 0) (((cfg1.win 0).blk t).view.emb (ix2 p k)) = _
    rw [emb1_0]
  · intro p k
    show V c (Pipeline.arrRef spec1 1) (((cfg1.win 1).blk t).view.emb (ix2 p k)) = _
    rw [emb1_1]
  · intro k q
    show V c (Pipeline.arrRef spec1 2) (((cfg1.win 2).blk t).view.emb (ix2 k q)) = _
    rw [emb1_2]; exact h2 k q
  · intro q
    show V c (Pipeline.arrRef spec1 3) (((cfg1.win 3).blk t).view.emb (ix2 (0 : Fin 1) q)) = _
    rw [emb1_3]; exact h3 q
  · intro k q
    show V c (Pipeline.arrRef spec1 4) (((cfg1.win 4).blk t).view.emb (ix2 k q)) = _
    rw [emb1_4]; exact h4 k q
  · intro q
    show V c (Pipeline.arrRef spec1 5) (((cfg1.win 5).blk t).view.emb (ix2 (0 : Fin 1) q)) = _
    rw [emb1_5]; exact h5 q
  · show _ = layer32 (F := Ideal) (V c (Pipeline.arrRef spec1 0)) (V c (Pipeline.arrRef spec1 1)) W1 b1 W2 b2 (((cfg1.win 6).blk t).view.emb (ix2 p q))
    rw [emb1_6]

/-- An index of the output array is in point `t`'s block iff each coordinate is in the block's range on its axis. -/
theorem mem_blk1 (t : Fin cfg1.N) (i : S100000x32.Idx) :
    i ∈ ((cfg1.win 6).blk t).view.set ↔ ∀ a : Fin 2, win1_6.index t a * S5000x32.size a ≤ (i a).val ∧ (i a).val < win1_6.index t a * S5000x32.size a + S5000x32.size a := by
  show i ∈ ((View.whole main_v36).slice (win1_6.rect t)).set ↔ _
  rw [View.set_slice_whole, Rect.mem_set_unit]
  exact Iff.rfl

/-- The twenty row blocks cover the output array: row r is in the block of point r / 5000. -/
theorem cover1 (i : S100000x32.Idx) : ∃ t : Fin cfg1.N, (cfg1.win 6).flush t = true ∧ i ∈ ((cfg1.win 6).blk t).view.set := by
  have hi0 : (i 0).val < 100000 := (i 0).isLt
  have hi1 : (i 1).val < 32 := (i 1).isLt
  have hN : cfg1.N = 20 := N_1
  have ht : (i 0).val / 5000 < cfg1.N := by rw [hN]; omega
  refine ⟨⟨(i 0).val / 5000, ht⟩, flush1_6 _, ?_⟩
  rw [mem_blk1]
  obtain ⟨-, -, -, -, -, -, -, -, -, -, -, -, e0, e1⟩ := idx1 ⟨(i 0).val / 5000, ht⟩
  intro a
  match a with
  | ⟨0, _⟩ => show win1_6.index ⟨(i 0).val / 5000, ht⟩ (0 : Fin 2) * 5000 ≤ (i 0).val ∧ (i 0).val < win1_6.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win1_6.index ⟨(i 0).val / 5000, ht⟩ (1 : Fin 2) * 32 ≤ (i 1).val ∧ (i 1).val < win1_6.index ⟨(i 0).val / 5000, ht⟩ (1 : Fin 2) * 32 + 32; rw [e1]; omega

/-- THE OUTPUT ARRAY after the twenty points is the reference's layer of the entry arrays. -/
theorem final1
    (h2 : ∀ (k : Fin 64) (q : Fin 32), (V c (Pipeline.arrRef spec1 2) : S64x32.Idx → EReal) (ix2 k q) = W1 (ix2 k q))
    (h3 : ∀ (q : Fin 32), (V c (Pipeline.arrRef spec1 3) : S1x32.Idx → EReal) (ix2 (0 : Fin 1) q) = b1 (ix1 q))
    (h4 : ∀ (k : Fin 64) (q : Fin 32), (V c (Pipeline.arrRef spec1 4) : S64x32.Idx → EReal) (ix2 k q) = W2 (ix2 k q))
    (h5 : ∀ (q : Fin 32), (V c (Pipeline.arrRef spec1 5) : S1x32.Idx → EReal) (ix2 (0 : Fin 1) q) = b2 (ix1 q)) :
    (dat1 V c).arrAt 6 cfg1.N
      = layer32 (F := Ideal) (V c (Pipeline.arrRef spec1 0)) (V c (Pipeline.arrRef spec1 1)) W1 b1 W2 b2 :=
  (dat1 V c).arrAt_eq_of_cover 6 _ (fun t _ => flushed1_eq V c W1 W2 b1 b2 h2 h3 h4 h5 t) (cover1)

end Final1

/-! ## The result, read back to the arguments -/

section Chain
variable (m : (ℓ : Loc nD τ sig) → Buf (Elt Ideal) ℓ) (ρ : Dev nD → PrngReg) (c : Dev nD)

/-- An argument's buffer holds its launch contents at the first pallas_call's exit (nothing before writes it). -/
theorem B2_arg (r : Ref sig .tc) (h0 : r ∉ hostOps0_W) (hr0 : ∀ w, Pipeline.arrRef spec0 w ≠ r) :
    B2 m ρ c (Proc.devRef .tc r) = m ((c : Thread nD τ).loc r) :=
  (B2_of_ne m ρ c r hr0).trans ((StableHlo.after_of_writes_sub hostOps0 _ hostOps0_writes h0).trans rfl)

/-- The first pallas_call is entered with the stacked tables and their sparse product. -/
theorem E1_v0 : E1 m ρ c (Pipeline.arrRef spec0 0) = ego0 (F := Ideal) (m ((c : Thread nD τ).loc main_arg0)) (m ((c : Thread nD τ).loc main_arg1)) :=
  ops0_v0 (B0 m ρ c)
theorem E1_v13 : E1 m ρ c (Pipeline.arrRef spec0 1)
    = spmm (F := Ideal) (ego0 (F := Ideal) (m ((c : Thread nD τ).loc main_arg0)) (m ((c : Thread nD τ).loc main_arg1))) (m ((c : Thread nD τ).loc main_arg2)) (m ((c : Thread nD τ).loc main_arg11)) (m ((c : Thread nD τ).loc main_arg12)) :=
  ops0_v13 (B0 m ρ c)

/-- THE FIRST LAYER'S EMBEDDING: what the first pallas_call leaves in its output array. -/
theorem B2_v18 : B2 m ρ c (Proc.devRef .tc main_v18) = emb1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) := by
  refine (B2_arr m ρ c 6).trans ((final0 (E1 m ρ) c (m ((c : Thread nD τ).loc main_arg3)) (m ((c : Thread nD τ).loc main_arg5)) (m ((c : Thread nD τ).loc main_arg4)) (m ((c : Thread nD τ).loc main_arg6))
    (fun k q => ops0_v14 (B0 m ρ c) k q) (fun q => ops0_v16 (B0 m ρ c) q) (fun k q => ops0_v15 (B0 m ρ c) k q) (fun q => ops0_v17 (B0 m ρ c) q)).trans ?_)
  rw [E1_v0, E1_v13]; rfl

/-- The stacked tables are still in place at the end. -/
theorem B4_v0 : B4 m ρ c (Proc.devRef .tc main_v0) = ego0 (F := Ideal) (m ((c : Thread nD τ).loc main_arg0)) (m ((c : Thread nD τ).loc main_arg1)) :=
  calc B4 m ρ c (Proc.devRef .tc main_v0)
    _ = B3 m ρ c (Proc.devRef .tc main_v0) := B4_of_ne m ρ c main_v0 (by decide)
    _ = B2 m ρ c (Proc.devRef .tc main_v0) := StableHlo.after_of_writes_sub hostOps1 _ hostOps1_writes (by decide)
    _ = E1 m ρ c (Pipeline.arrRef spec0 0) := (B2_arr m ρ c 0).trans (((dat0 (E1 m ρ) c).arrAt_in 0 rfl _).trans (A_eq0 (E1 m ρ) c 0))
    _ = _ := E1_v0 m ρ c

/-- The second pallas_call is entered with the first layer's embedding and its sparse product. -/
theorem E3_v18 : E3 m ρ c (Pipeline.arrRef spec1 0) = emb1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) :=
  (StableHlo.after_of_writes_sub hostOps1 _ hostOps1_writes (by decide : main_v18 ∉ hostOps1_W)).trans (B2_v18 m ρ c)
theorem E3_v31 : E3 m ρ c (Pipeline.arrRef spec1 1)
    = spmm (F := Ideal) (emb1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12))) (m ((c : Thread nD τ).loc main_arg2)) (m ((c : Thread nD τ).loc main_arg11)) (m ((c : Thread nD τ).loc main_arg12)) := by
  refine (ops1_v31 (B2 m ρ c)).trans ?_
  rw [B2_v18, B2_arg m ρ c main_arg2 (by decide) (by decide), B2_arg m ρ c main_arg11 (by decide) (by decide), B2_arg m ρ c main_arg12 (by decide) (by decide)]

/-- The first layer's embedding is still in place at the end. -/
theorem B4_v18 : B4 m ρ c (Proc.devRef .tc main_v18) = emb1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) :=
  ((B4_arr m ρ c 0).trans (((dat1 (E3 m ρ) c).arrAt_in 0 rfl _).trans (A_eq1 (E3 m ρ) c 0))).trans (E3_v18 m ρ c)

/-- THE SECOND LAYER'S EMBEDDING: what the second pallas_call leaves in its output array. -/
theorem B4_v36 : B4 m ρ c (Proc.devRef .tc main_v36)
    = emb2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (B4_arr m ρ c 6).trans ((final1 (E3 m ρ) c (m ((c : Thread nD τ).loc main_arg7)) (m ((c : Thread nD τ).loc main_arg9)) (m ((c : Thread nD τ).loc main_arg8)) (m ((c : Thread nD τ).loc main_arg10))
    (fun k q => (ops1_v32 (B2 m ρ c) k q).trans (by rw [B2_arg m ρ c main_arg7 (by decide) (by decide)]))
    (fun q => (ops1_v34 (B2 m ρ c) q).trans (by rw [B2_arg m ρ c main_arg8 (by decide) (by decide)]))
    (fun k q => (ops1_v33 (B2 m ρ c) k q).trans (by rw [B2_arg m ρ c main_arg9 (by decide) (by decide)]))
    (fun q => (ops1_v35 (B2 m ρ c) q).trans (by rw [B2_arg m ρ c main_arg10 (by decide) (by decide)]))).trans ?_)
  rw [E3_v18, E3_v31]; rfl

/-- THE RESULT: the final concatenation holds the reference's result term of the arguments. -/
theorem result_eq : B5 m ρ c (Proc.devRef .tc main_v37)
    = result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (ops2_v37 (B4 m ρ c)).trans ?_
  rw [B4_v0, B4_v18, B4_v36]; rfl

end Chain

/-- THE KERNEL PROGRAM'S RUN with its result named: every weakly fair execution terminates, nothing faulting; the result
    buffer ends at the reference's result term of the arguments, and the arguments end as launched. -/
theorem value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v37) = result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v37 (by decide))).trans (result_eq m ρ c),
    (h c _ (mem_uc main_arg0 (by decide))).trans (B5_of_untouched m ρ c main_arg0 (by decide) (by decide) (by decide) (by decide) (by decide)),
    (h c _ (mem_uc main_arg1 (by decide))).trans (B5_of_untouched m ρ c main_arg1 (by decide) (by decide) (by decide) (by decide) (by decide)),
    (h c _ (mem_uc main_arg2 (by decide))).trans (B5_of_untouched m ρ c main_arg2 (by decide) (by decide) (by decide) (by decide) (by decide)),
    (h c _ (mem_uc main_arg3 (by decide))).trans (B5_of_untouched m ρ c main_arg3 (by decide) (by decide) (by decide) (by decide) (by decide)),
    (h c _ (mem_uc main_arg4 (by decide))).trans (B5_of_untouched m ρ c main_arg4 (by decide) (by decide) (by decide) (by decide) (by decide)),
    (h c _ (mem_uc main_arg5 (by decide))).trans (B5_of_untouched m ρ c main_arg5 (by decide) (by decide) (by decide) (by decide) (by decide)),
    (h c _ (mem_uc main_arg6 (by decide))).trans (B5_of_untouched m ρ c main_arg6 (by decide) (by decide) (by decide) (by decide) (by decide)),
    (h c _ (mem_uc main_arg7 (by decide))).trans (B5_of_untouched m ρ c main_arg7 (by decide) (by decide) (by decide) (by decide) (by decide)),
    (h c _ (mem_uc main_arg8 (by decide))).trans (B5_of_untouched m ρ c main_arg8 (by decide) (by decide) (by decide) (by decide) (by decide)),
    (h c _ (mem_uc main_arg9 (by decide))).trans (B5_of_untouched m ρ c main_arg9 (by decide) (by decide) (by decide) (by decide) (by decide)),
    (h c _ (mem_uc main_arg10 (by decide))).trans (B5_of_untouched m ρ c main_arg10 (by decide) (by decide) (by decide) (by decide) (by decide)),
    (h c _ (mem_uc main_arg11 (by decide))).trans (B5_of_untouched m ρ c main_arg11 (by decide) (by decide) (by decide) (by decide) (by decide)),
    (h c _ (mem_uc main_arg12 (by decide))).trans (B5_of_untouched m ρ c main_arg12 (by decide) (by decide) (by decide) (by decide) (by decide))⟩) (run_all m ρ)

end Cert.KernelIdeal.KV

end
-- ==== Proof.RefRun.lean ====
/-
  The run of the reference program: its host operations in order, as a list, and what each buffer
  holds once they have run. The list is cut into six stretches — the stacking of the two tables, the
  sparse product, the first bi-interaction layer, the sparse product again, the second layer, the final
  concatenation — and each stretch's result buffer is shown to hold the corresponding named term of
  the stretch's inputs; the stretches are then chained.
-/
import proofs.«119050_j61040075210791_1_alg».proof.Proof.Terms
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The stacking of the user table on the entity table. -/
def opsA : List (HloOp τ sig (Elt F)) :=
  [ binary main_arg0 main_arg1 main_v0 ((fun a b => concatenate S100000x64 0 [⟨S30000x64, a⟩, ⟨S70000x64, b⟩] concatenates_S30000x64_S70000x64_S100000x64_d0) : (⟨S30000x64, .f32⟩ : BufTy).Contents (Elt F) → (⟨S70000x64, .f32⟩ : BufTy).Contents (Elt F) → (⟨S100000x64, .f32⟩ : BufTy).Contents (Elt F)) ]

/-- The references the operations of `opsA` write. -/
abbrev opsA_W : List (Ref sig .tc) := [main_v0]

/-- The sparse product over the stacked tables: the gathered rows scaled by the edge weights, added into zeros. -/
def opsSp1 : List (HloOp τ sig (Elt F)) :=
  [ nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg12 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg12 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg12 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_v0 main_v6 main_v7 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg2 main_v8 (broadcastInDim S1600000x1 ![0] bcast_S1600000_S1600000x1_0 : (⟨S1600000, .f32⟩ : BufTy).Contents (Elt F) → (⟨S1600000x1, .f32⟩ : BufTy).Contents (Elt F)),
    unary main_v8 main_v9 (broadcastInDim S1600000x64 ![0, 1] bcast_S1600000x1_S1600000x64_0_1 : (⟨S1600000x1, .f32⟩ : BufTy).Contents (Elt F) → (⟨S1600000x64, .f32⟩ : BufTy).Contents (Elt F)),
    binary main_v7 main_v9 main_v10 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_arg11 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The references the operations of `opsSp1` write. -/
abbrev opsSp1_W : List (Ref sig .tc) := [main_c, main_v1, main_v2, main_c_0, main_v3, main_v4, main_v5, main_v6, main_v7, main_v8, main_v9, main_v10, main_cst, main_v11, main_v12, main_v13]

/-- The first bi-interaction layer: the two transformed branches, each through the leaky relu (its seven operations at the call site, over the call's buffers), their sum, and the division of each row by its norm. -/
def opsL1 : List (HloOp τ sig (Elt F)) :=
  [ binary main_v0 main_v13 main_v14 (addf : (⟨S100000x64, .f32⟩ : BufTy).Contents (Elt F) → (⟨S100000x64, .f32⟩ : BufTy).Contents (Elt F) → (⟨S100000x64, .f32⟩ : BufTy).Contents (Elt F)),
    binary main_v14 main_arg3 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v18 : TRef sig ⟨S100000x64, .f32⟩) main_call0.v0 main_call0.v1 (cmpf .oge),
    TRef.nullary main_call0.cst_0 (constant S_ .f32 0x3C23D70A#32),
    TRef.unary main_call0.cst_0 main_call0.v2 (broadcastInDim S100000x64 ![] bcast_S_S100000x64),
    TRef.binary main_call0.v2 (.of main_v18 : TRef sig ⟨S100000x64, .f32⟩) main_call0.v3 mulf,
    TRef.ternary main_call0.v1 (.of main_v18 : TRef sig ⟨S100000x64, .f32⟩) main_call0.v3 main_call0.call0.v0 select,
    binary main_v0 main_v13 main_v20 (mulf : (⟨S100000x64, .f32⟩ : BufTy).Contents (Elt F) → (⟨S100000x64, .f32⟩ : BufTy).Contents (Elt F) → (⟨S100000x64, .f32⟩ : BufTy).Contents (Elt F)),
    binary main_v20 main_arg5 main_v21 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v22 (broadcastInDim S1x64 ![1] bcast_S64_S1x64_1 : (⟨S64, .f32⟩ : BufTy).Contents (Elt F) → (⟨S1x64, .f32⟩ : BufTy).Contents (Elt F)),
    unary main_v22 main_v23 (broadcastInDim S100000x64 ![0, 1] bcast_S1x64_S100000x64_0_1 : (⟨S1x64, .f32⟩ : BufTy).Contents (Elt F) → (⟨S100000x64, .f32⟩ : BufTy).Contents (Elt F)),
    binary main_v21 main_v23 main_v24 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v24 : TRef sig ⟨S100000x64, .f32⟩) main_call1.v0 main_call1.v1 (cmpf .oge),
    TRef.nullary main_call1.cst_0 (constant S_ .f32 0x3C23D70A#32),
    TRef.unary main_call1.cst_0 main_call1.v2 (broadcastInDim S100000x64 ![] bcast_S_S100000x64),
    TRef.binary main_call1.v2 (.of main_v24 : TRef sig ⟨S100000x64, .f32⟩) main_call1.v3 mulf,
    TRef.ternary main_call1.v1 (.of main_v24 : TRef sig ⟨S100000x64, .f32⟩) main_call1.v3 main_call1.call0.v0 select,
    binary main_v19 main_v25 main_v26 (addf : (⟨S100000x64, .f32⟩ : BufTy).Contents (Elt F) → (⟨S100000x64, .f32⟩ : BufTy).Contents (Elt F) → (⟨S100000x64, .f32⟩ : BufTy).Contents (Elt F)),
    binary main_v26 main_v26 main_v27 (mulf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v27 main_cst_1 main_v28 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v28 main_v29 (broadcastInDim S100000x1 ![0] bcast_S100000_S100000x1_0 : (⟨S100000, .f32⟩ : BufTy).Contents (Elt F) → (⟨S100000x1, .f32⟩ : BufTy).Contents (Elt F)),
    unary main_v29 main_v30 (Host.sqrt : (⟨S100000x1, .f32⟩ : BufTy).Contents (Elt F) → (⟨S100000x1, .f32⟩ : BufTy).Contents (Elt F)),
    nullary main_cst_2 (constant S_ .f32 0x2B8CBCCC#32),
    unary main_cst_2 main_v31 (broadcastInDim S100000x1 ![] bcast_S_S100000x1 : (⟨S_, .f32⟩ : BufTy).Contents (Elt F) → (⟨S100000x1, .f32⟩ : BufTy).Contents (Elt F)),
    binary main_v30 main_v31 main_v32 (maximumf : (⟨S100000x1, .f32⟩ : BufTy).Contents (Elt F) → (⟨S100000x1, .f32⟩ : BufTy).Contents (Elt F) → (⟨S100000x1, .f32⟩ : BufTy).Contents (Elt F)),
    unary main_v32 main_v33 (broadcastInDim S100000x64 ![0, 1] bcast_S100000x1_S100000x64_0_1 : (⟨S100000x1, .f32⟩ : BufTy).Contents (Elt F) → (⟨S100000x64, .f32⟩ : BufTy).Contents (Elt F)),
    binary main_v26 main_v33 main_v34 (Host.divf : (⟨S100000x64, .f32⟩ : BufTy).Contents (Elt F) → (⟨S100000x64, .f32⟩ : BufTy).Contents (Elt F) → (⟨S100000x64, .f32⟩ : BufTy).Contents (Elt F)) ]

/-- The references the operations of `opsL1` write. -/
abbrev opsL1_W : List (Ref sig .tc) := [main_v14, main_v15, main_v16, main_v17, main_v18, main_call0_cst, main_call0_v0, main_call0_v1, main_call0_cst_0, main_call0_v2, main_call0_v3, main_v19, main_v20, main_v21, main_v22, main_v23, main_v24, main_call1_cst, main_call1_v0, main_call1_v1, main_call1_cst_0, main_call1_v2, main_call1_v3, main_v25, main_v26, main_v27, main_cst_1, main_v28, main_v29, main_v30, main_cst_2, main_v31, main_v32, main_v33, main_v34]

/-- The sparse product over the first layer's embedding. -/
def opsSp2 : List (HloOp τ sig (Elt F)) :=
  [ nullary main_c_3 (constantI S_ 32 0#32),
    unary main_c_3 main_v35 (broadcastInDim S1600000 ![] bcast_S_S1600000 : (⟨S_, .i32⟩ : BufTy).Contents (Elt F) → (⟨S1600000, .i32⟩ : BufTy).Contents (Elt F)),
    binary main_arg12 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v37 (broadcastInDim S1600000 ![] bcast_S_S1600000 : (⟨S_, .i32⟩ : BufTy).Contents (Elt F) → (⟨S1600000, .i32⟩ : BufTy).Contents (Elt F)),
    binary main_arg12 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_arg12 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_v34 main_v40 main_v41 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg2 main_v42 (broadcastInDim S1600000x1 ![0] bcast_S1600000_S1600000x1_0 : (⟨S1600000, .f32⟩ : BufTy).Contents (Elt F) → (⟨S1600000x1, .f32⟩ : BufTy).Contents (Elt F)),
    unary main_v42 main_v43 (broadcastInDim S1600000x64 ![0, 1] bcast_S1600000x1_S1600000x64_0_1 : (⟨S1600000x1, .f32⟩ : BufTy).Contents (Elt F) → (⟨S1600000x64, .f32⟩ : BufTy).Contents (Elt F)),
    binary main_v41 main_v43 main_v44 (mulf : (⟨S1600000x64, .f32⟩ : BufTy).Contents (Elt F) → (⟨S1600000x64, .f32⟩ : BufTy).Contents (Elt F) → (⟨S1600000x64, .f32⟩ : BufTy).Contents (Elt F)),
    nullary main_cst_5 (constant S_ .f32 0x00000000#32),
    unary main_cst_5 main_v45 (broadcastInDim S100000x64 ![] bcast_S_S100000x64 : (⟨S_, .f32⟩ : BufTy).Contents (Elt F) → (⟨S100000x64, .f32⟩ : BufTy).Contents (Elt F)),
    unary main_arg11 main_v46 (broadcastInDim S1600000x1 ![0] bcast_S1600000_S1600000x1_0 : (⟨S1600000, .i32⟩ : BufTy).Contents (Elt F) → (⟨S1600000x1, .i32⟩ : BufTy).Contents (Elt F)),
    ternary main_v45 main_v46 main_v44 main_v47 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The references the operations of `opsSp2` write. -/
abbrev opsSp2_W : List (Ref sig .tc) := [main_c_3, main_v35, main_v36, main_c_4, main_v37, main_v38, main_v39, main_v40, main_v41, main_v42, main_v43, main_v44, main_cst_5, main_v45, main_v46, main_v47]

/-- The second bi-interaction layer, 32 columns out. -/
def opsL2 : List (HloOp τ sig (Elt F)) :=
  [ binary main_v34 main_v47 main_v48 (addf : (⟨S100000x64, .f32⟩ : BufTy).Contents (Elt F) → (⟨S100000x64, .f32⟩ : BufTy).Contents (Elt F) → (⟨S100000x64, .f32⟩ : BufTy).Contents (Elt F)),
    binary main_v48 main_arg7 main_v49 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg8 main_v50 (broadcastInDim S1x32 ![1] bcast_S32_S1x32_1 : (⟨S32, .f32⟩ : BufTy).Contents (Elt F) → (⟨S1x32, .f32⟩ : BufTy).Contents (Elt F)),
    unary main_v50 main_v51 (broadcastInDim S100000x32 ![0, 1] bcast_S1x32_S100000x32_0_1 : (⟨S1x32, .f32⟩ : BufTy).Contents (Elt F) → (⟨S100000x32, .f32⟩ : BufTy).Contents (Elt F)),
    binary main_v49 main_v51 main_v52 (addf : (⟨S100000x32, .f32⟩ : BufTy).Contents (Elt F) → (⟨S100000x32, .f32⟩ : BufTy).Contents (Elt F) → (⟨S100000x32, .f32⟩ : BufTy).Contents (Elt F)),
    TRef.nullary main_call2.cst (constant S_ .f32 0x00000000#32),
    TRef.unary main_call2.cst main_call2.v0 (broadcastInDim S100000x32 ![] bcast_S_S100000x32),
    TRef.binary (.of main_v52 : TRef sig ⟨S100000x32, .f32⟩) main_call2.v0 main_call2.v1 (cmpf .oge),
    TRef.nullary main_call2.cst_0 (constant S_ .f32 0x3C23D70A#32),
    TRef.unary main_call2.cst_0 main_call2.v2 (broadcastInDim S100000x32 ![] bcast_S_S100000x32),
    TRef.binary main_call2.v2 (.of main_v52 : TRef sig ⟨S100000x32, .f32⟩) main_call2.v3 mulf,
    TRef.ternary main_call2.v1 (.of main_v52 : TRef sig ⟨S100000x32, .f32⟩) main_call2.v3 main_call2.call0.v0 select,
    binary main_v34 main_v47 main_v54 (mulf : (⟨S100000x64, .f32⟩ : BufTy).Contents (Elt F) → (⟨S100000x64, .f32⟩ : BufTy).Contents (Elt F) → (⟨S100000x64, .f32⟩ : BufTy).Contents (Elt F)),
    binary main_v54 main_arg9 main_v55 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg10 main_v56 (broadcastInDim S1x32 ![1] bcast_S32_S1x32_1 : (⟨S32, .f32⟩ : BufTy).Contents (Elt F) → (⟨S1x32, .f32⟩ : BufTy).Contents (Elt F)),
    unary main_v56 main_v57 (broadcastInDim S100000x32 ![0, 1] bcast_S1x32_S100000x32_0_1 : (⟨S1x32, .f32⟩ : BufTy).Contents (Elt F) → (⟨S100000x32, .f32⟩ : BufTy).Contents (Elt F)),
    binary main_v55 main_v57 main_v58 (addf : (⟨S100000x32, .f32⟩ : BufTy).Contents (Elt F) → (⟨S100000x32, .f32⟩ : BufTy).Contents (Elt F) → (⟨S100000x32, .f32⟩ : BufTy).Contents (Elt F)),
    TRef.nullary main_call3.cst (constant S_ .f32 0x00000000#32),
    TRef.unary main_call3.cst main_call3.v0 (broadcastInDim S100000x32 ![] bcast_S_S100000x32),
    TRef.binary (.of main_v58 : TRef sig ⟨S100000x32, .f32⟩) main_call3.v0 main_call3.v1 (cmpf .oge),
    TRef.nullary main_call3.cst_0 (constant S_ .f32 0x3C23D70A#32),
    TRef.unary main_call3.cst_0 main_call3.v2 (broadcastInDim S100000x32 ![] bcast_S_S100000x32),
    TRef.binary main_call3.v2 (.of main_v58 : TRef sig ⟨S100000x32, .f32⟩) main_call3.v3 mulf,
    TRef.ternary main_call3.v1 (.of main_v58 : TRef sig ⟨S100000x32, .f32⟩) main_call3.v3 main_call3.call0.v0 select,
    binary main_v53 main_v59 main_v60 (addf : (⟨S100000x32, .f32⟩ : BufTy).Contents (Elt F) → (⟨S100000x32, .f32⟩ : BufTy).Contents (Elt F) → (⟨S100000x32, .f32⟩ : BufTy).Contents (Elt F)),
    binary main_v60 main_v60 main_v61 (mulf : (⟨S100000x32, .f32⟩ : BufTy).Contents (Elt F) → (⟨S100000x32, .f32⟩ : BufTy).Contents (Elt F) → (⟨S100000x32, .f32⟩ : BufTy).Contents (Elt F)),
    nullary main_cst_6 (constant S_ .f32 0x00000000#32),
    binary main_v61 main_cst_6 main_v62 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v62 main_v63 (broadcastInDim S100000x1 ![0] bcast_S100000_S100000x1_0 : (⟨S100000, .f32⟩ : BufTy).Contents (Elt F) → (⟨S100000x1, .f32⟩ : BufTy).Contents (Elt F)),
    unary main_v63 main_v64 (Host.sqrt : (⟨S100000x1, .f32⟩ : BufTy).Contents (Elt F) → (⟨S100000x1, .f32⟩ : BufTy).Contents (Elt F)),
    nullary main_cst_7 (constant S_ .f32 0x2B8CBCCC#32),
    unary main_cst_7 main_v65 (broadcastInDim S100000x1 ![] bcast_S_S100000x1 : (⟨S_, .f32⟩ : BufTy).Contents (Elt F) → (⟨S100000x1, .f32⟩ : BufTy).Contents (Elt F)),
    binary main_v64 main_v65 main_v66 (maximumf : (⟨S100000x1, .f32⟩ : BufTy).Contents (Elt F) → (⟨S100000x1, .f32⟩ : BufTy).Contents (Elt F) → (⟨S100000x1, .f32⟩ : BufTy).Contents (Elt F)),
    unary main_v66 main_v67 (broadcastInDim S100000x32 ![0, 1] bcast_S100000x1_S100000x32_0_1 : (⟨S100000x1, .f32⟩ : BufTy).Contents (Elt F) → (⟨S100000x32, .f32⟩ : BufTy).Contents (Elt F)),
    binary main_v60 main_v67 main_v68 (Host.divf : (⟨S100000x32, .f32⟩ : BufTy).Contents (Elt F) → (⟨S100000x32, .f32⟩ : BufTy).Contents (Elt F) → (⟨S100000x32, .f32⟩ : BufTy).Contents (Elt F)) ]

/-- The references the operations of `opsL2` write. -/
abbrev opsL2_W : List (Ref sig .tc) := [main_v48, main_v49, main_v50, main_v51, main_v52, main_call2_cst, main_call2_v0, main_call2_v1, main_call2_cst_0, main_call2_v2, main_call2_v3, main_v53, main_v54, main_v55, main_v56, main_v57, main_v58, main_call3_cst, main_call3_v0, main_call3_v1, main_call3_cst_0, main_call3_v2, main_call3_v3, main_v59, main_v60, main_v61, main_cst_6, main_v62, main_v63, main_v64, main_cst_7, main_v65, main_v66, main_v67, main_v68]

/-- The three embeddings side by side. -/
def opsC : List (HloOp τ sig (Elt F)) :=
  [ nary ![main_v0, main_v34, main_v68] main_v69 (fun u => concatenate S100000x160 1 [⟨S100000x64, u 0⟩, ⟨S100000x64, u 1⟩, ⟨S100000x32, u 2⟩] concatenates_S100000x64_S100000x64_S100000x32_S100000x160_d1) ]

/-- The references the operations of `opsC` write. -/
abbrev opsC_W : List (Ref sig .tc) := [main_v69]

/-- The reference's operations in order, the four calls unfolded at their sites. -/
def ops : List (HloOp τ sig (Elt F)) := opsA ++ (opsSp1 ++ (opsL1 ++ (opsSp2 ++ (opsL2 ++ opsC))))

set_option maxRecDepth 8192 in
set_option maxHeartbeats 4000000 in
/-- The printed program is that straight line: the two windows and the functions' bodies unfolded at their calls,
    sequencing reassociated. -/
theorem main_eq (c : Dev nD) : main (F := F) c = seq ops := by
  simp only [main, main_part0, main_part1, fn_leaky_relu.body, fn_leaky_relu_0.body, fn_where.body, fn_where_1.body, bind_assoc, pure_bind]
  rfl

/-! ## The fold over a concatenation, and the side conditions stretch by stretch -/

/-- The fold over a concatenation is the fold over the second list, from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A property of every operation of two lists holds of every operation of their concatenation. -/
theorem forall_app {p : HloOp τ sig (Elt F) → Prop} {l₁ l₂ : List (HloOp τ sig (Elt F))}
    (h₁ : l₁.Forall p) (h₂ : l₂.Forall p) : (l₁ ++ l₂).Forall p :=
  List.forall_iff_forall_mem.mpr fun op h =>
    (List.mem_append.mp h).elim (List.forall_iff_forall_mem.mp h₁ op) (List.forall_iff_forall_mem.mp h₂ op)

/-- One operation's result buffer is in the stretch's list of written references. -/
local macro "writes_in" : tactic =>
  `(tactic| (simp only [nullary_writes, unary_writes, binary_writes, ternary_writes, nary_writes, Finset.singleton_subset_iff,
      List.mem_toFinset]; exact List.mem_map_of_mem (by decide)))

theorem opsA_sub : (opsA : List (HloOp τ sig (Elt F))).Forall fun op => op.bufs ⊆ tcRefs τ sig := by
  simp only [opsA, List.Forall]
  exact binary_bufs_sub ..
theorem opsA_fresh : (opsA : List (HloOp τ sig (Elt F))).Forall fun op => op.fresh = ∅ := by
  simp only [opsA, List.Forall]; repeat' constructor
theorem opsA_writes : (opsA : List (HloOp τ sig (Elt F))).Forall fun op =>
    op.writes ⊆ (opsA_W.map (Proc.devRef (τ := τ) .tc)).toFinset := by
  simp only [opsA, List.Forall]; and_intros <;> writes_in
/-- A reference `opsA` does not write keeps its contents. -/
theorem opsA_of (V : Valuation τ sig (Elt F)) {r : Ref sig .tc} (h : r ∉ opsA_W) :
    after opsA V (no_index (Proc.devRef .tc r)) = V (Proc.devRef .tc r) :=
  after_of_writes_sub opsA V opsA_writes h

theorem opsSp1_sub : (opsSp1 : List (HloOp τ sig (Elt F))).Forall fun op => op.bufs ⊆ tcRefs τ sig := by
  simp only [opsSp1, List.Forall]
  exact ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub ..⟩
theorem opsSp1_fresh : (opsSp1 : List (HloOp τ sig (Elt F))).Forall fun op => op.fresh = ∅ := by
  simp only [opsSp1, List.Forall]; repeat' constructor
theorem opsSp1_writes : (opsSp1 : List (HloOp τ sig (Elt F))).Forall fun op =>
    op.writes ⊆ (opsSp1_W.map (Proc.devRef (τ := τ) .tc)).toFinset := by
  simp only [opsSp1, List.Forall]; and_intros <;> writes_in
/-- A reference `opsSp1` does not write keeps its contents. -/
theorem opsSp1_of (V : Valuation τ sig (Elt F)) {r : Ref sig .tc} (h : r ∉ opsSp1_W) :
    after opsSp1 V (no_index (Proc.devRef .tc r)) = V (Proc.devRef .tc r) :=
  after_of_writes_sub opsSp1 V opsSp1_writes h

theorem opsL1_sub : (opsL1 : List (HloOp τ sig (Elt F))).Forall fun op => op.bufs ⊆ tcRefs τ sig := by
  simp only [opsL1, List.Forall]
  exact ⟨binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., binary_bufs_sub .., nullary_bufs_sub .., binary_bufs_sub .., unary_bufs_sub .., unary_bufs_sub ..,
    nullary_bufs_sub .., unary_bufs_sub .., binary_bufs_sub .., unary_bufs_sub .., binary_bufs_sub ..⟩
theorem opsL1_fresh : (opsL1 : List (HloOp τ sig (Elt F))).Forall fun op => op.fresh = ∅ := by
  simp only [opsL1, List.Forall]; repeat' constructor
theorem opsL1_writes : (opsL1 : List (HloOp τ sig (Elt F))).Forall fun op =>
    op.writes ⊆ (opsL1_W.map (Proc.devRef (τ := τ) .tc)).toFinset := by
  simp only [opsL1, List.Forall]; and_intros <;> writes_in
/-- A reference `opsL1` does not write keeps its contents. -/
theorem opsL1_of (V : Valuation τ sig (Elt F)) {r : Ref sig .tc} (h : r ∉ opsL1_W) :
    after opsL1 V (no_index (Proc.devRef .tc r)) = V (Proc.devRef .tc r) :=
  after_of_writes_sub opsL1 V opsL1_writes h

theorem opsSp2_sub : (opsSp2 : List (HloOp τ sig (Elt F))).Forall fun op => op.bufs ⊆ tcRefs τ sig := by
  simp only [opsSp2, List.Forall]
  exact ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub ..⟩
theorem opsSp2_fresh : (opsSp2 : List (HloOp τ sig (Elt F))).Forall fun op => op.fresh = ∅ := by
  simp only [opsSp2, List.Forall]; repeat' constructor
theorem opsSp2_writes : (opsSp2 : List (HloOp τ sig (Elt F))).Forall fun op =>
    op.writes ⊆ (opsSp2_W.map (Proc.devRef (τ := τ) .tc)).toFinset := by
  simp only [opsSp2, List.Forall]; and_intros <;> writes_in
/-- A reference `opsSp2` does not write keeps its contents. -/
theorem opsSp2_of (V : Valuation τ sig (Elt F)) {r : Ref sig .tc} (h : r ∉ opsSp2_W) :
    after opsSp2 V (no_index (Proc.devRef .tc r)) = V (Proc.devRef .tc r) :=
  after_of_writes_sub opsSp2 V opsSp2_writes h

theorem opsL2_sub : (opsL2 : List (HloOp τ sig (Elt F))).Forall fun op => op.bufs ⊆ tcRefs τ sig := by
  simp only [opsL2, List.Forall]
  exact ⟨binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., binary_bufs_sub .., nullary_bufs_sub .., binary_bufs_sub .., unary_bufs_sub .., unary_bufs_sub ..,
    nullary_bufs_sub .., unary_bufs_sub .., binary_bufs_sub .., unary_bufs_sub .., binary_bufs_sub ..⟩
theorem opsL2_fresh : (opsL2 : List (HloOp τ sig (Elt F))).Forall fun op => op.fresh = ∅ := by
  simp only [opsL2, List.Forall]; repeat' constructor
theorem opsL2_writes : (opsL2 : List (HloOp τ sig (Elt F))).Forall fun op =>
    op.writes ⊆ (opsL2_W.map (Proc.devRef (τ := τ) .tc)).toFinset := by
  simp only [opsL2, List.Forall]; and_intros <;> writes_in
/-- A reference `opsL2` does not write keeps its contents. -/
theorem opsL2_of (V : Valuation τ sig (Elt F)) {r : Ref sig .tc} (h : r ∉ opsL2_W) :
    after opsL2 V (no_index (Proc.devRef .tc r)) = V (Proc.devRef .tc r) :=
  after_of_writes_sub opsL2 V opsL2_writes h

theorem opsC_sub : (opsC : List (HloOp τ sig (Elt F))).Forall fun op => op.bufs ⊆ tcRefs τ sig := by
  simp only [opsC, List.Forall]
  exact nary_bufs_sub ..
theorem opsC_fresh : (opsC : List (HloOp τ sig (Elt F))).Forall fun op => op.fresh = ∅ := by
  simp only [opsC, List.Forall]; repeat' constructor
theorem opsC_writes : (opsC : List (HloOp τ sig (Elt F))).Forall fun op =>
    op.writes ⊆ (opsC_W.map (Proc.devRef (τ := τ) .tc)).toFinset := by
  simp only [opsC, List.Forall]; and_intros <;> writes_in
/-- A reference `opsC` does not write keeps its contents. -/
theorem opsC_of (V : Valuation τ sig (Elt F)) {r : Ref sig .tc} (h : r ∉ opsC_W) :
    after opsC V (no_index (Proc.devRef .tc r)) = V (Proc.devRef .tc r) :=
  after_of_writes_sub opsC V opsC_writes h

/-! ## What each stretch leaves in its result buffer

Each stretch's fold is read at its result buffer, from any contents `V`: every operation's result at its own
buffer is its function of its operands' contents, at any other buffer what was there. What is left is the
named term of the contents the stretch started from. -/

theorem A_v0 (V : Valuation τ sig (Elt F)) :
    after opsA V (no_index (Proc.devRef .tc main_v0)) = Terms.ego0 (V (Proc.devRef .tc main_arg0)) (V (Proc.devRef .tc main_arg1)) := by
  unfold opsA
  after_results
  rfl

theorem Sp1_v13 (V : Valuation τ sig (Elt F)) :
    after opsSp1 V (no_index (Proc.devRef .tc main_v13))
      = Terms.spmm (V (Proc.devRef .tc main_v0)) (V (Proc.devRef .tc main_arg2)) (V (Proc.devRef .tc main_arg11)) (V (Proc.devRef .tc main_arg12)) := by
  unfold opsSp1
  after_results
  rfl

theorem L1_v34 (V : Valuation τ sig (Elt F)) :
    after opsL1 V (no_index (Proc.devRef .tc main_v34))
      = Terms.layer64 (V (Proc.devRef .tc main_v0)) (V (Proc.devRef .tc main_v13)) (V (Proc.devRef .tc main_arg3)) (V (Proc.devRef .tc main_arg4)) (V (Proc.devRef .tc main_arg5)) (V (Proc.devRef .tc main_arg6)) := by
  unfold opsL1
  after_results_simp
  rfl

theorem Sp2_v47 (V : Valuation τ sig (Elt F)) :
    after opsSp2 V (no_index (Proc.devRef .tc main_v47))
      = Terms.spmm (V (Proc.devRef .tc main_v34)) (V (Proc.devRef .tc main_arg2)) (V (Proc.devRef .tc main_arg11)) (V (Proc.devRef .tc main_arg12)) := by
  unfold opsSp2
  after_results
  rfl

theorem L2_v68 (V : Valuation τ sig (Elt F)) :
    after opsL2 V (no_index (Proc.devRef .tc main_v68))
      = Terms.layer32 (V (Proc.devRef .tc main_v34)) (V (Proc.devRef .tc main_v47)) (V (Proc.devRef .tc main_arg7)) (V (Proc.devRef .tc main_arg8)) (V (Proc.devRef .tc main_arg9)) (V (Proc.devRef .tc main_arg10)) := by
  unfold opsL2
  after_results_simp
  rfl

theorem C_v69 (V : Valuation τ sig (Elt F)) :
    after opsC V (no_index (Proc.devRef .tc main_v69)) = Terms.cat3 (V (Proc.devRef .tc main_v0)) (V (Proc.devRef .tc main_v34)) (V (Proc.devRef .tc main_v68)) := by
  unfold opsC
  after_results
  rfl

/-! ## The whole line -/

theorem ops_sub : (ops : List (HloOp τ sig (Elt F))).Forall fun op => op.bufs ⊆ tcRefs τ sig := by
  unfold ops
  exact forall_app opsA_sub (forall_app opsSp1_sub (forall_app opsL1_sub (forall_app opsSp2_sub (forall_app opsL2_sub opsC_sub))))

theorem ops_fresh : (ops : List (HloOp τ sig (Elt F))).Forall fun op => op.fresh = ∅ := by
  unfold ops
  exact forall_app opsA_fresh (forall_app opsSp1_fresh (forall_app opsL1_fresh (forall_app opsSp2_fresh (forall_app opsL2_fresh opsC_fresh))))

/-- A reference no stretch writes ends as it started. -/
theorem ops_of (V : Valuation τ sig (Elt F)) {r : Ref sig .tc} (hA : r ∉ opsA_W) (hS1 : r ∉ opsSp1_W) (hL1 : r ∉ opsL1_W)
    (hS2 : r ∉ opsSp2_W) (hL2 : r ∉ opsL2_W) (hC : r ∉ opsC_W) :
    after ops V (Proc.devRef .tc r) = V (Proc.devRef .tc r) := by
  unfold ops
  rw [after_app, after_app, after_app, after_app, after_app]
  exact (opsC_of _ hC).trans <| (opsL2_of _ hL2).trans <| (opsSp2_of _ hS2).trans <| (opsL1_of _ hL1).trans <|
    (opsSp1_of _ hS1).trans (opsA_of _ hA)

/-- The result buffer after the whole line: the stretches chained. The concatenation reads the stacked tables and
    the two embeddings, each still where its stretch left it (no later stretch writes it); each layer reads its
    input embedding and the sparse product of it, and the weights, which no stretch writes. -/
theorem out_eq (V : Valuation τ sig (Elt F)) :
    after ops V (Proc.devRef .tc main_v69) = Terms.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold ops
  rw [after_app, after_app, after_app, after_app, after_app]
  simp (disch := decide) only [C_v69, L2_v68, Sp2_v47, L1_v34, Sp1_v13, A_v0, opsL2_of, opsSp2_of, opsL1_of, opsSp1_of, opsA_of]
  rfl

theorem scopedRefs_eq : (Finset.univ.filter fun b : Ref sig .tc => b.isScoped) = ∅ := by decide
theorem scopedSems_eq : (Finset.univ.filter fun sm : SemLoc sig => sm.isScoped .tc) = ∅ := by decide

/-- On the device, for any float values, from any memory with zero counters: every weakly fair execution of the
    reference terminates with its result buffer at `Terms.result` of the arguments' launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v69) = Terms.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v69).trans (out_eq _),
      (h c main_arg0).trans (ops_of _ (by decide) (by decide) (by decide) (by decide) (by decide) (by decide)),
      (h c main_arg1).trans (ops_of _ (by decide) (by decide) (by decide) (by decide) (by decide) (by decide)),
      (h c main_arg2).trans (ops_of _ (by decide) (by decide) (by decide) (by decide) (by decide) (by decide)),
      (h c main_arg3).trans (ops_of _ (by decide) (by decide) (by decide) (by decide) (by decide) (by decide)),
      (h c main_arg4).trans (ops_of _ (by decide) (by decide) (by decide) (by decide) (by decide) (by decide)),
      (h c main_arg5).trans (ops_of _ (by decide) (by decide) (by decide) (by decide) (by decide) (by decide)),
      (h c main_arg6).trans (ops_of _ (by decide) (by decide) (by decide) (by decide) (by decide) (by decide)),
      (h c main_arg7).trans (ops_of _ (by decide) (by decide) (by decide) (by decide) (by decide) (by decide)),
      (h c main_arg8).trans (ops_of _ (by decide) (by decide) (by decide) (by decide) (by decide) (by decide)),
      (h c main_arg9).trans (ops_of _ (by decide) (by decide) (by decide) (by decide) (by decide) (by decide)),
      (h c main_arg10).trans (ops_of _ (by decide) (by decide) (by decide) (by decide) (by decide) (by decide)),
      (h c main_arg11).trans (ops_of _ (by decide) (by decide) (by decide) (by decide) (by decide) (by decide)),
      (h c main_arg12).trans (ops_of _ (by decide) (by decide) (by decide) (by decide) (by decide) (by decide))⟩)
    (run_seq scopedRefs_eq scopedSems_eq defs main (fun _ => ops) main_eq (fun _ => ops_sub) m ρ
      (fun _ => List.forall_iff_forall_mem.mp ops_fresh))

end Cert.ReferenceIdeal.RefRun

end
-- ==== Proof.lean ====
/-
  The certificate: the kernel program (two bi-interaction layers, each a pallas_call over twenty row blocks, between
  host gathers, scatter-adds and concatenations) against its jnp reference, on the extended reals.

  * The three frames. Each kernel program runs as five segments — host operations, the first layer's pallas_call, host
    operations, the second layer's pallas_call, the final concatenation — and no host operation and no pallas_call
    writes an argument array (Proof/KRun.lean at the exact instance, Proof/KRunb.lean at the word-level one, over the
    pallas_calls' bodies in Proof/KReg0 … KReg1b). The reference is a line of host operations (Proof/RefRun.lean).
  * The idealization rewrote nothing, so there is nothing to preserve.
  * The two idealized programs end with equal results. Both apply the same host operations around the layers: the
    tables stacked, the sparse product A·x as a gather scaled by the edge weights and scatter-added by row, the three
    embeddings side by side. Inside a layer the kernel differs from the reference only in ways that vanish on the
    extended reals: operands rounded to bf16 before the matrix products (the identity), a matrix product per block of
    5000 rows into a zero accumulator against one whole product (both Σ_k l·r, row by row), `x > 0` against `x ≥ 0` in
    the leaky relu (equal since 0.01·0 = 0), and a row's squares summed from 0 by a lane reduction against a host
    reduction. Only commutativity and associativity of + on the extended reals are used, so the precondition (finite
    inputs) is never opened. Proof/Bridge64.lean and Bridge32.lean prove the layer equality entry by entry for one row
    block; Proof/KValue.lean assembles the twenty blocks into the whole array and reads the kernel's result back to
    the arguments; Proof/Terms.lean names the reference's intermediate values, against which both runs are stated.
-/
import proofs.«119050_j61040075210791_1_alg».proof.Defs
import proofs.«119050_j61040075210791_1_alg».proof.Proof.Gen.Kernel
import proofs.«119050_j61040075210791_1_alg».proof.Proof.Gen.KernelIdeal
import proofs.«119050_j61040075210791_1_alg».proof.Proof.Gen.ReferenceIdeal
import proofs.«119050_j61040075210791_1_alg».proof.Proof.Gen.Pre_finite_inputs
import proofs.«119050_j61040075210791_1_alg».proof.Proof.KRun
import proofs.«119050_j61040075210791_1_alg».proof.Proof.KRunb
import proofs.«119050_j61040075210791_1_alg».proof.Proof.KValue
import proofs.«119050_j61040075210791_1_alg».proof.Proof.RefRun
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_k : Cert.frame_Kernel := fun m ρ _ => Cert.Kernel.KF.frame (F := Bits) m ρ

/-- So does the idealized kernel program. -/
theorem frame_ki : Cert.frame_KernelIdeal := fun m ρ _ => Cert.KernelIdeal.KF.frame (F := Ideal) m ρ

/-- So does the idealized reference: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Run from memories that agree on the arguments, the two idealized programs both end with the reference's result
    term of those arguments in their result buffers. -/
theorem algebraic : Cert.algebraic_KernelIdeal_ReferenceIdeal := by
  intro m ρ m' ρ' _ hagree
  refine ⟨fun c => Cert.ReferenceIdeal.Terms.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.KV.value m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11, e12⟩ := hagree c
  rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
